-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 81
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x64, .f32⟩
  | .hbm, ⟨80, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S128x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x64, .f32⟩
  | 10 => ⟨S128x64, .f32⟩
  | 11 => ⟨S64, .f32⟩
  | 12 => ⟨S128, .f32⟩
  | 13 => ⟨S128, .f32⟩
  | 14 => ⟨S128, .f32⟩
  | 15 => ⟨S128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S_, .f32⟩
  | 65 => ⟨S100000x1, .f32⟩
  | 66 => ⟨S100000x1, .f32⟩
  | 67 => ⟨S100000x1, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S_, .f32⟩
  | 118 => ⟨S100000x1, .f32⟩
  | 119 => ⟨S100000x1, .f32⟩
  | 120 => ⟨S100000x1, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S100000x128, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call0_cst : Ref sig .tc := ⟨.hbm, 76, rfl⟩
abbrev main_call0_v0 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call1_cst : Ref sig .tc := ⟨.hbm, 129, rfl⟩
abbrev main_call1_v0 : Ref sig .tc := ⟨.hbm, 130, rfl⟩
abbrev main_v92 : Ref sig .tc := ⟨.hbm, 131, rfl⟩
abbrev main_c_17 : Ref sig .tc := ⟨.hbm, 132, rfl⟩
abbrev main_v93 : Ref sig .tc := ⟨.hbm, 133, rfl⟩
abbrev main_v94 : Ref sig .tc := ⟨.hbm, 134, rfl⟩
abbrev main_c_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  Every weakly fair execution of the program ends, without a fault, with the argument arrays as launched and with
  the result array at the contents the chain of its six segments (three stretches of host operations and three
  kernel regions) leaves there: the last region's output array after all its write-backs.
-/
import proofs.«152912_j23235773072077_1_alg».proof.Proof.KernelIdealFrame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments, read against the final state at the result array and at every argument. -/
theorem run_named : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunNamed

end
-- ==== Proof.KernelHost.lean ====
/-
  The idealized kernel's three stretches of host operations, evaluated.

  Before each kernel region the program gathers the rows of the current node features at the (wrapped) source indices,
  adds them at the target rows and divides by the clamped in-degree (`aggK`, carried as one function and never opened),
  and recasts the layer's bias, gain and shift vectors as one-row matrices. Each stretch leaves these at the buffers
  the region reads, and leaves the argument arrays, the degree column and the previous region's output untouched.
-/
import proofs.«152912_j23235773072077_1_alg».proof.Proof.KernelIdealLaunch
import Idealize.ShloMosaic.Lib.StableHlo.Run
import Idealize.ShloMosaic.PureOps.Ideal

set_option maxRecDepth 8192

noncomputable section

namespace Cert.SageKernel

open Cert.KernelIdeal Cert.KernelIdeal.Gen Cert.KernelIdeal.GenP Idealize.ShloMosaic Idealize.ShloMosaic.TcCoe Idealize.SL.Sem Idealize.ShloMosaic.StableHlo

/-- The in-degree of every node, clamped below at 1, as a column. -/
def denK (dst : (⟨S1600000, .i32⟩ : BufTy).Contents (Elt Ideal)) : FVec Ideal S100000x1 .f32 :=
  broadcastInDim S100000x1 ![0] bcast_S100000_S100000x1_0
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The neighbour mean: the rows of h at the (wrapped) source indices, added at the target rows, divided by the column
    `den` spread over the features. -/
def aggK (h : FVec Ideal S100000x128 .f32) (src dst : (⟨S1600000, .i32⟩ : BufTy).Contents (Elt Ideal))
    (den : FVec Ideal S100000x1 .f32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 den)

/-- A vector of 128 recast as a one-row matrix. -/
def rowK (b : FVec Ideal S128 .f32) : FVec Ideal S1x128 .f32 := shapeCast S1x128 b shapeCasts_S128_S1x128

/-- A vector of 64 recast as a one-row matrix. -/
def rowK64 (b : FVec Ideal S64 .f32) : FVec Ideal S1x64 .f32 := shapeCast S1x64 b shapeCasts_S64_S1x64

variable (W : Valuation τ sig (Elt Ideal))

/-! ## Before the first region -/

theorem h0_arg0 : after (hostOps0 (F := Ideal)) W (Proc.devRef .tc main_arg0) = (W (Proc.devRef .tc main_arg0)) := by after_results_simp <;> rfl
theorem h0_v18 : after (hostOps0 (F := Ideal)) W (Proc.devRef .tc main_v18) = aggK (W (Proc.devRef .tc main_arg0)) (W (Proc.devRef .tc main_arg1)) (W (Proc.devRef .tc main_arg2)) (denK (W (Proc.devRef .tc main_arg2))) := by
  after_results_simp <;> rfl
theorem h0_arg3 : after (hostOps0 (F := Ideal)) W (Proc.devRef .tc main_arg3) = (W (Proc.devRef .tc main_arg3)) := by after_results_simp <;> rfl
theorem h0_arg4 : after (hostOps0 (F := Ideal)) W (Proc.devRef .tc main_arg4) = (W (Proc.devRef .tc main_arg4)) := by after_results_simp <;> rfl
theorem h0_v19 : after (hostOps0 (F := Ideal)) W (Proc.devRef .tc main_v19) = rowK (W (Proc.devRef .tc main_arg5)) := by after_results_simp <;> rfl
theorem h0_v20 : after (hostOps0 (F := Ideal)) W (Proc.devRef .tc main_v20) = rowK (W (Proc.devRef .tc main_arg12)) := by after_results_simp <;> rfl
theorem h0_v21 : after (hostOps0 (F := Ideal)) W (Proc.devRef .tc main_v21) = rowK (W (Proc.devRef .tc main_arg13)) := by after_results_simp <;> rfl
theorem h0_v6 : after (hostOps0 (F := Ideal)) W (Proc.devRef .tc main_v6) = denK (W (Proc.devRef .tc main_arg2)) := by after_results_simp <;> rfl
theorem h0_arg1 : after (hostOps0 (F := Ideal)) W (Proc.devRef .tc main_arg1) = (W (Proc.devRef .tc main_arg1)) := by after_results_simp <;> rfl
theorem h0_arg2 : after (hostOps0 (F := Ideal)) W (Proc.devRef .tc main_arg2) = (W (Proc.devRef .tc main_arg2)) := by after_results_simp <;> rfl
theorem h0_arg6 : after (hostOps0 (F := Ideal)) W (Proc.devRef .tc main_arg6) = (W (Proc.devRef .tc main_arg6)) := by after_results_simp <;> rfl
theorem h0_arg7 : after (hostOps0 (F := Ideal)) W (Proc.devRef .tc main_arg7) = (W (Proc.devRef .tc main_arg7)) := by after_results_simp <;> rfl
theorem h0_arg8 : after (hostOps0 (F := Ideal)) W (Proc.devRef .tc main_arg8) = (W (Proc.devRef .tc main_arg8)) := by after_results_simp <;> rfl
theorem h0_arg14 : after (hostOps0 (F := Ideal)) W (Proc.devRef .tc main_arg14) = (W (Proc.devRef .tc main_arg14)) := by after_results_simp <;> rfl
theorem h0_arg15 : after (hostOps0 (F := Ideal)) W (Proc.devRef .tc main_arg15) = (W (Proc.devRef .tc main_arg15)) := by after_results_simp <;> rfl
theorem h0_arg9 : after (hostOps0 (F := Ideal)) W (Proc.devRef .tc main_arg9) = (W (Proc.devRef .tc main_arg9)) := by after_results_simp <;> rfl
theorem h0_arg10 : after (hostOps0 (F := Ideal)) W (Proc.devRef .tc main_arg10) = (W (Proc.devRef .tc main_arg10)) := by after_results_simp <;> rfl
theorem h0_arg11 : after (hostOps0 (F := Ideal)) W (Proc.devRef .tc main_arg11) = (W (Proc.devRef .tc main_arg11)) := by after_results_simp <;> rfl

/-! ## Between the first and the second region -/

theorem h1_v22 : after (hostOps1 (F := Ideal)) W (Proc.devRef .tc main_v22) = (W (Proc.devRef .tc main_v22)) := by after_results_simp <;> rfl
theorem h1_v34 : after (hostOps1 (F := Ideal)) W (Proc.devRef .tc main_v34) = aggK (W (Proc.devRef .tc main_v22)) (W (Proc.devRef .tc main_arg1)) (W (Proc.devRef .tc main_arg2)) (W (Proc.devRef .tc main_v6)) := by
  after_results_simp <;> rfl
theorem h1_arg6 : after (hostOps1 (F := Ideal)) W (Proc.devRef .tc main_arg6) = (W (Proc.devRef .tc main_arg6)) := by after_results_simp <;> rfl
theorem h1_arg7 : after (hostOps1 (F := Ideal)) W (Proc.devRef .tc main_arg7) = (W (Proc.devRef .tc main_arg7)) := by after_results_simp <;> rfl
theorem h1_v35 : after (hostOps1 (F := Ideal)) W (Proc.devRef .tc main_v35) = rowK (W (Proc.devRef .tc main_arg8)) := by after_results_simp <;> rfl
theorem h1_v36 : after (hostOps1 (F := Ideal)) W (Proc.devRef .tc main_v36) = rowK (W (Proc.devRef .tc main_arg14)) := by after_results_simp <;> rfl
theorem h1_v37 : after (hostOps1 (F := Ideal)) W (Proc.devRef .tc main_v37) = rowK (W (Proc.devRef .tc main_arg15)) := by after_results_simp <;> rfl
theorem h1_v6 : after (hostOps1 (F := Ideal)) W (Proc.devRef .tc main_v6) = (W (Proc.devRef .tc main_v6)) := by after_results_simp <;> rfl
theorem h1_arg1 : after (hostOps1 (F := Ideal)) W (Proc.devRef .tc main_arg1) = (W (Proc.devRef .tc main_arg1)) := by after_results_simp <;> rfl
theorem h1_arg2 : after (hostOps1 (F := Ideal)) W (Proc.devRef .tc main_arg2) = (W (Proc.devRef .tc main_arg2)) := by after_results_simp <;> rfl
theorem h1_arg9 : after (hostOps1 (F := Ideal)) W (Proc.devRef .tc main_arg9) = (W (Proc.devRef .tc main_arg9)) := by after_results_simp <;> rfl
theorem h1_arg10 : after (hostOps1 (F := Ideal)) W (Proc.devRef .tc main_arg10) = (W (Proc.devRef .tc main_arg10)) := by after_results_simp <;> rfl
theorem h1_arg11 : after (hostOps1 (F := Ideal)) W (Proc.devRef .tc main_arg11) = (W (Proc.devRef .tc main_arg11)) := by after_results_simp <;> rfl

/-! ## Between the second and the third region -/

theorem h2_v38 : after (hostOps2 (F := Ideal)) W (Proc.devRef .tc main_v38) = (W (Proc.devRef .tc main_v38)) := by after_results_simp <;> rfl
theorem h2_v50 : after (hostOps2 (F := Ideal)) W (Proc.devRef .tc main_v50) = aggK (W (Proc.devRef .tc main_v38)) (W (Proc.devRef .tc main_arg1)) (W (Proc.devRef .tc main_arg2)) (W (Proc.devRef .tc main_v6)) := by
  after_results_simp <;> rfl
theorem h2_arg9 : after (hostOps2 (F := Ideal)) W (Proc.devRef .tc main_arg9) = (W (Proc.devRef .tc main_arg9)) := by after_results_simp <;> rfl
theorem h2_arg10 : after (hostOps2 (F := Ideal)) W (Proc.devRef .tc main_arg10) = (W (Proc.devRef .tc main_arg10)) := by after_results_simp <;> rfl
theorem h2_v51 : after (hostOps2 (F := Ideal)) W (Proc.devRef .tc main_v51) = rowK64 (W (Proc.devRef .tc main_arg11)) := by after_results_simp <;> rfl

end Cert.SageKernel

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«152912_j23235773072077_1_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibNormRows.lean ====
/-
  A layer of the network on one row of node features, on the extended reals, for any widths.

  A row x of K features and the row a of its aggregated neighbours go through two weight matrices and a bias:
  `dense2 Ws Wn b x a` is x·Ws + a·Wn + b. `normalize g x` is the layer normalisation of a row without its shift:
  the row minus its mean, times the reciprocal square root of its variance plus ε, times the gain g, where the mean
  of N numbers is their sum divided by the float 128 (the two programs both divide by that constant, so the width the
  constant stands for is not used) and ε is the float nearest 1e-5. `normRelu g β x` adds the shift β and takes the
  entrywise maximum with 0. Nothing here uses finiteness: the two programs compute these same expressions.
-/
import Idealize.ShloMosaic.Lib.ValueIdx
import Idealize.ShloMosaic.PureOps.Ideal.Laws
import proofs.«152912_j23235773072077_1_alg».proof.Proof.LibDenseRows

noncomputable section

open scoped BigOperators

namespace Cert.LibNormRows

open Idealize.ShloMosaic Idealize.ShloMosaic.ValueIdx Cert.LibDenseRows

/-- x·Ws + a·Wn + b on a row x and the aggregated row a. -/
def dense2 {K N : ℕ} (Ws Wn : Fin K → Fin N → EReal) (b : Fin N → EReal) (x a : Fin K → EReal) : Fin N → EReal :=
  fun e => (matvec Ws x e + matvec Wn a e) + b e

/-- The divisor both programs divide a row's sum by: the float 128. -/
def width : EReal := Ideal.ofBits .f32 0x43000000#32

/-- The ε both programs add to the variance: the float nearest 1e-5. -/
def eps : EReal := Ideal.ofBits .f32 0x3727C5AC#32

/-- A row's sum divided by the float 128. -/
def rowMean {N : ℕ} (x : Fin N → EReal) : EReal := Ideal.div (∑ f : Fin N, x f) width

/-- A row minus its mean. -/
def centered {N : ℕ} (x : Fin N → EReal) : Fin N → EReal := fun e => x e - rowMean x

/-- The reciprocal square root of the variance plus ε. -/
def invStd {N : ℕ} (x : Fin N → EReal) : EReal :=
  Ideal.rsqrt (rowMean (fun f => centered x f * centered x f) + eps)

/-- Layer normalisation of a row with gain g, without the shift. -/
def normalize {N : ℕ} (g x : Fin N → EReal) : Fin N → EReal := fun e => (centered x e * invStd x) * g e

/-- Layer normalisation with gain g and shift β, then ReLU. -/
def normRelu {N : ℕ} (g β x : Fin N → EReal) : Fin N → EReal := relu (fun e => normalize g x e + β e)

/-! ## A layer on a whole matrix of rows -/

/-- The normalised layer on every row: row r of the result is `normRelu g β` of `dense2 Ws Wn b` of row r of H and of A. -/
def layerNormed {M K N : ℕ} (H A : (⟨2, ![M, K]⟩ : Shape).Idx → EReal) (Ws Wn : (⟨2, ![K, N]⟩ : Shape).Idx → EReal)
    (b g β : Fin N → EReal) : (⟨2, ![M, N]⟩ : Shape).Idx → EReal :=
  fun i => normRelu g β (dense2 (rows Ws) (rows Wn) b (rows H (i 0)) (rows A (i 0))) (i 1)

/-- The plain layer on every row: row r of the result is `dense2 Ws Wn b` of row r of H and of A. -/
def layerPlain {M K N : ℕ} (H A : (⟨2, ![M, K]⟩ : Shape).Idx → EReal) (Ws Wn : (⟨2, ![K, N]⟩ : Shape).Idx → EReal)
    (b : Fin N → EReal) : (⟨2, ![M, N]⟩ : Shape).Idx → EReal :=
  fun i => dense2 (rows Ws) (rows Wn) b (rows H (i 0)) (rows A (i 0)) (i 1)

theorem layerNormed_apply {M K N : ℕ} (H A : (⟨2, ![M, K]⟩ : Shape).Idx → EReal) (Ws Wn : (⟨2, ![K, N]⟩ : Shape).Idx → EReal)
    (b g β : Fin N → EReal) (r : Fin M) (e : Fin N) :
    layerNormed H A Ws Wn b g β (ix2 r e) = normRelu g β (dense2 (rows Ws) (rows Wn) b (rows H r) (rows A r)) e := rfl

theorem layerPlain_apply {M K N : ℕ} (H A : (⟨2, ![M, K]⟩ : Shape).Idx → EReal) (Ws Wn : (⟨2, ![K, N]⟩ : Shape).Idx → EReal)
    (b : Fin N → EReal) (r : Fin M) (e : Fin N) :
    layerPlain H A Ws Wn b (ix2 r e) = dense2 (rows Ws) (rows Wn) b (rows H r) (rows A r) e := rfl

/-- A matrix whose every row is the normalised layer of the operands' rows is `layerNormed` of them. -/
theorem eq_layerNormed_of_rows {M K N : ℕ} (X : (⟨2, ![M, N]⟩ : Shape).Idx → EReal)
    (H A : (⟨2, ![M, K]⟩ : Shape).Idx → EReal) (Ws Wn : (⟨2, ![K, N]⟩ : Shape).Idx → EReal) (b g β : Fin N → EReal)
    (h : ∀ r : Fin M, rows X r = normRelu g β (dense2 (rows Ws) (rows Wn) b (rows H r) (rows A r))) :
    X = layerNormed H A Ws Wn b g β :=
  funext fun i => (congrArg X (eq_ix2 i)).trans (congrFun (h (i 0)) (i 1))

/-- A matrix whose every row is the plain layer of the operands' rows is `layerPlain` of them. -/
theorem eq_layerPlain_of_rows {M K N : ℕ} (X : (⟨2, ![M, N]⟩ : Shape).Idx → EReal)
    (H A : (⟨2, ![M, K]⟩ : Shape).Idx → EReal) (Ws Wn : (⟨2, ![K, N]⟩ : Shape).Idx → EReal) (b : Fin N → EReal)
    (h : ∀ r : Fin M, rows X r = dense2 (rows Ws) (rows Wn) b (rows H r) (rows A r)) :
    X = layerPlain H A Ws Wn b :=
  funext fun i => (congrArg X (eq_ix2 i)).trans (congrFun (h (i 0)) (i 1))

end Cert.LibNormRows

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KernelRows.lean ====
/-
  The three kernel bodies read row by row.

  Each body loads a block of rows x of node features and the block a of their aggregated neighbours, two weight
  matrices, a bias row and (the first two bodies) a gain row and a shift row, and stores one block. Row p of what the
  first two bodies store is `normRelu` of `dense2` of row p of x and a; row p of what the third stores is `dense2`
  of them. The narrowing of the operands to bf16 before the products is the identity on the extended reals, and a
  product into the zero accumulator is the plain sum of products.
-/
import proofs.«152912_j23235773072077_1_alg».proof.Proof.Gen.KernelIdeal.Skeleton
import proofs.«152912_j23235773072077_1_alg».proof.Proof.LibNormRows
import proofs.«152912_j23235773072077_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SageKernel

open Idealize.ShloMosaic Idealize.ShloMosaic.ValueIdx Cert.KernelIdeal Cert.KernelIdeal.Gen Cert.LibDenseRows Cert.LibKeepdims Cert.LibNormRows

/-! ## The operations of a body, row by row -/

section Rows

variable {M N : ℕ}

/-- A [1, N] row recast to its own shape and spread over M rows reads the row at every row. -/
theorem bcastRow_apply {φ : FTy} (b : FVec Ideal ⟨2, ![1, N]⟩ φ) (hc : (⟨2, ![1, N]⟩ : Shape).ShapeCasts ⟨2, ![1, N]⟩)
    (hb : (⟨2, ![1, N]⟩ : Shape).Broadcasts ⟨2, ![M, N]⟩) (r : Fin M) (e : Fin N) :
    broadcastTo ⟨2, ![M, N]⟩ (shapeCast ⟨2, ![1, N]⟩ b hc) hb (ix2 r e) = rows b 0 e :=
  (broadcastTo_1b_ab_apply _ hb r e).trans (congrFun (shapeCast_self b hc) (ix2 (0 : Fin 1) e))

/-- Adding such a row adds it to every row. -/
theorem rows_add_row {φ : FTy} (u : FVec Ideal ⟨2, ![M, N]⟩ φ) (b : FVec Ideal ⟨2, ![1, N]⟩ φ)
    (hc : (⟨2, ![1, N]⟩ : Shape).ShapeCasts ⟨2, ![1, N]⟩) (hb : (⟨2, ![1, N]⟩ : Shape).Broadcasts ⟨2, ![M, N]⟩) (r : Fin M) :
    rows (addf u (broadcastTo ⟨2, ![M, N]⟩ (shapeCast ⟨2, ![1, N]⟩ b hc) hb)) r = fun e => rows u r e + rows b 0 e :=
  funext fun e => congrArg (fun t => u (ix2 r e) + t) (bcastRow_apply b hc hb r e)

/-- Multiplying by such a row multiplies every row by it, entry by entry. -/
theorem rows_mul_row {φ : FTy} (u : FVec Ideal ⟨2, ![M, N]⟩ φ) (g : FVec Ideal ⟨2, ![1, N]⟩ φ)
    (hc : (⟨2, ![1, N]⟩ : Shape).ShapeCasts ⟨2, ![1, N]⟩) (hb : (⟨2, ![1, N]⟩ : Shape).Broadcasts ⟨2, ![M, N]⟩) (r : Fin M) :
    rows (mulf u (broadcastTo ⟨2, ![M, N]⟩ (shapeCast ⟨2, ![1, N]⟩ g hc) hb)) r = fun e => rows u r e * rows g 0 e :=
  funext fun e => congrArg (fun t => u (ix2 r e) * t) (bcastRow_apply g hc hb r e)

/-- Subtracting an [M, 1] column spread over the N columns subtracts from row r the column's entry of row r. -/
theorem rows_sub_col {φ : FTy} (u : FVec Ideal ⟨2, ![M, N]⟩ φ) (c : FVec Ideal ⟨2, ![M, 1]⟩ φ)
    (hb : (⟨2, ![M, 1]⟩ : Shape).Broadcasts ⟨2, ![M, N]⟩) (r : Fin M) :
    rows (subf u (broadcastTo ⟨2, ![M, N]⟩ c hb)) r = fun e => rows u r e - c (ix2 r (0 : Fin 1)) :=
  funext fun e => congrArg (fun t => u (ix2 r e) - t) (broadcastTo_a1_ac_apply c hb r e)

/-- Multiplying by such a column multiplies row r by the column's entry of row r. -/
theorem rows_mul_col {φ : FTy} (u : FVec Ideal ⟨2, ![M, N]⟩ φ) (c : FVec Ideal ⟨2, ![M, 1]⟩ φ)
    (hb : (⟨2, ![M, 1]⟩ : Shape).Broadcasts ⟨2, ![M, N]⟩) (r : Fin M) :
    rows (mulf u (broadcastTo ⟨2, ![M, N]⟩ c hb)) r = fun e => rows u r e * c (ix2 r (0 : Fin 1)) :=
  funext fun e => congrArg (fun t => u (ix2 r e) * t) (broadcastTo_a1_ac_apply c hb r e)

/-- The row sums kept as a column and divided by the splat of the float 128: entry r is the mean of row r. -/
theorem meanCol_apply (V : FVec Ideal ⟨2, ![M, N]⟩ .f32) (acc : BitVec FTy.f32.bits)
    (hr : (⟨2, ![M, N]⟩ : Shape).Reduces [1] ⟨1, ![M]⟩) (hφ : FKind.Formats .f32) (hacc : acc = FKind.add.neutral .f32 hφ)
    (hc : (⟨1, ![M]⟩ : Shape).ShapeCasts ⟨2, ![M, 1]⟩) (r : Fin M) (u : Fin 1) :
    divf (shapeCast ⟨2, ![M, 1]⟩ (multiReduction .add [1] ⟨1, ![M]⟩ V acc hr hφ hacc) hc)
        (broadcast ⟨2, ![M, 1]⟩ (Scalar.ofBits (F := Ideal) .f32 0x43000000#32)) (ix2 r u)
      = rowMean (rows V r) :=
  congrArg (fun t => Ideal.div t width)
    ((shapeCast_a_a1_apply _ hc r u).trans (multiReduction_add_lastAxis_apply V acc hr hφ hacc r))

end Rows

/-! ## The two halves of a normalising body, row by row -/

section Body

variable {M N : ℕ}

/-- The two products into zero accumulators added, plus the bias row: row r is `dense2` of row r of the operands. -/
theorem rows_dense2_body {K : ℕ} {φ₁ φ₂ : FTy} (d : DotDims ⟨2, ![M, K]⟩ ⟨2, ![K, N]⟩ ⟨2, ![M, N]⟩)
    (hd : d = DotDims.plain M K N) (prec : Option ContractPrecision)
    (x a : FVec Ideal ⟨2, ![M, K]⟩ φ₁) (ws wn : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (r : Fin M) :
    rows (addf (addf (matmul d prec x ws (constant (F := Ideal) ⟨2, ![M, N]⟩ .f32 0x00000000#32))
                     (matmul d prec a wn (constant (F := Ideal) ⟨2, ![M, N]⟩ .f32 0x00000000#32)))
               (broadcastTo ⟨2, ![M, N]⟩ (shapeCast ⟨2, ![1, N]⟩ b hc) hb)) r
      = dense2 (rows ws) (rows wn) (rows b 0) (rows x r) (rows a r) :=
  (rows_add_row _ b hc hb r).trans (funext fun e =>
    congrArg (fun t => t + rows b 0 e)
      (congrArg₂ (fun s t : EReal => s + t) (matmul_plain_zero_apply d hd prec x ws r e)
        (matmul_plain_zero_apply d hd prec a wn r e)))

/-- The normalisation of a body, row by row. `mean` is the column of the row means of V, `cen` is V minus that column
    spread over the columns, `var` is the column of the row means of the squares of `cen`, `inv` the reciprocal square
    root of `var` plus ε; the body multiplies `cen` by `inv` spread over the columns and by the gain row. -/
theorem rows_normalize_body (V cen : FVec Ideal ⟨2, ![M, N]⟩ .f32) (mean var inv : FVec Ideal ⟨2, ![M, 1]⟩ .f32)
    (g : FVec Ideal ⟨2, ![1, N]⟩ .f32) (acc : BitVec FTy.f32.bits)
    (hr : (⟨2, ![M, N]⟩ : Shape).Reduces [1] ⟨1, ![M]⟩) (hφ : FKind.Formats .f32) (hacc : acc = FKind.add.neutral .f32 hφ)
    (hc : (⟨1, ![M]⟩ : Shape).ShapeCasts ⟨2, ![M, 1]⟩) (hb : (⟨2, ![M, 1]⟩ : Shape).Broadcasts ⟨2, ![M, N]⟩)
    (hcr : (⟨2, ![1, N]⟩ : Shape).ShapeCasts ⟨2, ![1, N]⟩) (hbr : (⟨2, ![1, N]⟩ : Shape).Broadcasts ⟨2, ![M, N]⟩)
    (hmean : mean = divf (shapeCast ⟨2, ![M, 1]⟩ (multiReduction .add [1] ⟨1, ![M]⟩ V acc hr hφ hacc) hc)
        (broadcast ⟨2, ![M, 1]⟩ (Scalar.ofBits (F := Ideal) .f32 0x43000000#32)))
    (hcen : cen = subf V (broadcastTo ⟨2, ![M, N]⟩ mean hb))
    (hvar : var = divf (shapeCast ⟨2, ![M, 1]⟩ (multiReduction .add [1] ⟨1, ![M]⟩ (mulf cen cen) acc hr hφ hacc) hc)
        (broadcast ⟨2, ![M, 1]⟩ (Scalar.ofBits (F := Ideal) .f32 0x43000000#32)))
    (hinv : inv = rsqrt (addf var (broadcast ⟨2, ![M, 1]⟩ (Scalar.ofBits (F := Ideal) .f32 0x3727C5AC#32))))
    (r : Fin M) :
    rows (mulf (mulf cen (broadcastTo ⟨2, ![M, N]⟩ inv hb)) (broadcastTo ⟨2, ![M, N]⟩ (shapeCast ⟨2, ![1, N]⟩ g hcr) hbr)) r
      = normalize (rows g 0) (rows V r) := by
  -- row r of the centred matrix
  have e1 : rows cen r = centered (rows V r) := by
    rw [hcen, hmean]
    exact (rows_sub_col V _ hb r).trans (funext fun e =>
      congrArg (fun t => V (ix2 r e) - t) (meanCol_apply V acc hr hφ hacc hc r 0))
  -- entry r of the variance column
  have e2 : var (ix2 r (0 : Fin 1)) = rowMean (fun f => centered (rows V r) f * centered (rows V r) f) := by
    rw [hvar]
    refine (meanCol_apply (mulf cen cen) acc hr hφ hacc hc r 0).trans ?_
    show rowMean (fun f => rows cen r f * rows cen r f) = _
    rw [e1]
  -- entry r of the column of reciprocal standard deviations
  have e3 : inv (ix2 r (0 : Fin 1)) = invStd (rows V r) := by
    rw [hinv]
    show Ideal.rsqrt (var (ix2 r (0 : Fin 1)) + eps)
      = Ideal.rsqrt (rowMean (fun f => centered (rows V r) f * centered (rows V r) f) + eps)
    rw [e2]
  refine (rows_mul_row _ g hcr hbr r).trans (funext fun e => ?_)
  show rows (mulf cen (broadcastTo ⟨2, ![M, N]⟩ inv hb)) r e * rows g 0 e
    = (centered (rows V r) e * invStd (rows V r)) * rows g 0 e
  rw [rows_mul_col, e1, e3]

/-- The shift row added and the maximum with the splat of zero: ReLU of every row plus the shift row. -/
theorem rows_shift_relu_body (X : FVec Ideal ⟨2, ![M, N]⟩ .f32) (β : FVec Ideal ⟨2, ![1, N]⟩ .f32)
    (hcr : (⟨2, ![1, N]⟩ : Shape).ShapeCasts ⟨2, ![1, N]⟩) (hbr : (⟨2, ![1, N]⟩ : Shape).Broadcasts ⟨2, ![M, N]⟩) (r : Fin M) :
    rows (maximumf (addf X (broadcastTo ⟨2, ![M, N]⟩ (shapeCast ⟨2, ![1, N]⟩ β hcr) hbr))
        (broadcast ⟨2, ![M, N]⟩ (Scalar.ofBits (F := Ideal) .f32 0x00000000#32))) r
      = relu (fun e => rows X r e + rows β 0 e) :=
  (rows_max_zero _ r).trans (congrArg relu (rows_add_row X β hcr hbr r))

end Body

/-- Row p of the first body's value before the shift: the normalised layer of row p without the shift. -/
theorem rows_k0_pay2 (x0 x1 : FVec Ideal S5000x128 .f32) (x2 x3 : FVec Ideal S128x128 .f32) (x4 x5 : FVec Ideal S1x128 .f32)
    (p : Fin 5000) :
    rows (k0_pay2 (F := Ideal) x0 x1 x2 x3 x4 x5) p
      = normalize (rows x5 0) (dense2 (rows x2) (rows x3) (rows x4 0) (rows x0 p) (rows x1 p)) := by
  refine (rows_normalize_body (M := 5000) (N := 128) _ _ _ _ _ x5 _ _ _ _ _ _ _ _ rfl rfl rfl rfl p).trans ?_
  refine congrArg (normalize (rows x5 0)) ?_
  refine (rows_dense2_body dot_S5000x128_S128x128_S5000x128_1_0_0_1_n_n rfl none _ _ _ _ x4 _ _ p).trans ?_
  exact congrArg (fun m : FVec Ideal S5000x128 .f32 => dense2 (rows x2) (rows x3) (rows x4 0) (rows x0 p) (rows m p))
    (shapeCast_self x1 _)

/-- Row p of the first body's stored block. -/
theorem rows_k0 (x0 x1 : FVec Ideal S5000x128 .f32) (x2 x3 : FVec Ideal S128x128 .f32) (x4 x5 x6 : FVec Ideal S1x128 .f32)
    (p : Fin 5000) :
    rows (k0_pay1 (F := Ideal) (k0_pay2 (F := Ideal) x0 x1 x2 x3 x4 x5) x6) p
      = normRelu (rows x5 0) (rows x6 0) (dense2 (rows x2) (rows x3) (rows x4 0) (rows x0 p) (rows x1 p)) := by
  refine (rows_shift_relu_body (M := 5000) (N := 128) _ x6 _ _ p).trans ?_
  rw [rows_k0_pay2]
  rfl

/-- Row p of the second body's value before the shift: the normalised layer of row p without the shift. -/
theorem rows_k1_pay2 (x0 x1 : FVec Ideal S5000x128 .f32) (x2 x3 : FVec Ideal S128x128 .f32) (x4 x5 : FVec Ideal S1x128 .f32)
    (p : Fin 5000) :
    rows (k1_pay2 (F := Ideal) x0 x1 x2 x3 x4 x5) p
      = normalize (rows x5 0) (dense2 (rows x2) (rows x3) (rows x4 0) (rows x0 p) (rows x1 p)) := by
  refine (rows_normalize_body (M := 5000) (N := 128) _ _ _ _ _ x5 _ _ _ _ _ _ _ _ rfl rfl rfl rfl p).trans ?_
  refine congrArg (normalize (rows x5 0)) ?_
  refine (rows_dense2_body dot_S5000x128_S128x128_S5000x128_1_0_0_1_n_n rfl none _ _ _ _ x4 _ _ p).trans ?_
  exact congrArg₂ (fun m n : FVec Ideal S5000x128 .f32 => dense2 (rows x2) (rows x3) (rows x4 0) (rows m p) (rows n p))
    (shapeCast_self x0 _) (shapeCast_self x1 _)

/-- Row p of the second body's stored block. -/
theorem rows_k1 (x0 x1 : FVec Ideal S5000x128 .f32) (x2 x3 : FVec Ideal S128x128 .f32) (x4 x5 x6 : FVec Ideal S1x128 .f32)
    (p : Fin 5000) :
    rows (k1_pay1 (F := Ideal) (k1_pay2 (F := Ideal) x0 x1 x2 x3 x4 x5) x6) p
      = normRelu (rows x5 0) (rows x6 0) (dense2 (rows x2) (rows x3) (rows x4 0) (rows x0 p) (rows x1 p)) := by
  refine (rows_shift_relu_body (M := 5000) (N := 128) _ x6 _ _ p).trans ?_
  rw [rows_k1_pay2]
  rfl

/-- Row p of the third body's stored block. -/
theorem rows_k2 (x0 x1 : FVec Ideal S5000x128 .f32) (x2 x3 : FVec Ideal S128x64 .f32) (x4 : FVec Ideal S1x64 .f32)
    (p : Fin 5000) :
    rows (k2_pay1 (F := Ideal) x0 x1 x2 x3 x4) p = dense2 (rows x2) (rows x3) (rows x4 0) (rows x0 p) (rows x1 p) := by
  refine (rows_dense2_body dot_S5000x128_S128x64_S5000x64_1_0_0_1_n_n rfl none _ _ _ _ x4 _ _ p).trans ?_
  exact congrArg₂ (fun m n : FVec Ideal S5000x128 .f32 => dense2 (rows x2) (rows x3) (rows x4 0) (rows m p) (rows n p))
    (shapeCast_self x0 _) (shapeCast_self x1 _)

end Cert.SageKernel

end
-- ==== Proof.KernelLayers.lean ====
/-
  Each kernel region's output array as one function of the arrays the region finds.

  A region runs its body at 20 grid points; point t loads rows 5000·t … 5000·t + 4999 of the node features and of the
  neighbour aggregate, the whole weight, bias, gain and shift arrays, and writes back rows 5000·t … of the output. Row p of
  what the body stores is the layer's row function of row p of the loaded blocks, which is row 5000·t + p of the arrays;
  the 20 blocks tile the 100000 rows, so the output array ends holding the layer of the whole arrays, row by row.
-/
import proofs.«152912_j23235773072077_1_alg».proof.Proof.KernelIdealFrame
import proofs.«152912_j23235773072077_1_alg».proof.Proof.KernelRows
import Idealize.ShloMosaic.Lib.Pipeline.Value
import Idealize.ShloMosaic.Lib.ValueIdx

set_option maxRecDepth 16384

noncomputable section

namespace Cert.SageKernel

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.LibDenseRows Cert.LibNormRows

variable (V : (c : Dev nD) → (b : Ref sig .tc) → Buf (Elt Ideal) ((c : Thread nD τ).loc b))

theorem hz2 : (![0, 0] : Fin 2 → Nat) = fun _ => 0 := funext fun a => by fin_cases a <;> rfl

/-! ## Region 0 -/

/-- The block indices of region 0's windows over its grid of 20 points: the two row-tiled inputs and the output are at
    block (t, 0), every other window is its whole array. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- What region 0's output array ends holding, as one function of the arrays the region finds. -/
def G0 (c : Dev nD) : S100000x128.Idx → EReal :=
  layerNormed (M := 100000) (K := 128) (N := 128) (V c main_arg0 : S100000x128.Idx → EReal) (V c main_v18 : S100000x128.Idx → EReal) (V c main_arg3 : S128x128.Idx → EReal) (V c main_arg4 : S128x128.Idx → EReal) (rows (V c main_v19 : S1x128.Idx → EReal) 0) (rows (V c main_v20 : S1x128.Idx → EReal) 0) (rows (V c main_v21 : S1x128.Idx → EReal) 0)

/-- Window 2's block is its whole array at every point. -/
theorem blk0_2 (c : Dev nD) (t : Fin cfg0.N) : iblk0 V c 2 t = (V c main_arg3 : S128x128.Idx → EReal) := by
  obtain ⟨f0, f1, f2, f3, f4, f5, f6, f7, f8, f9, f10, f11, f12, f13, f14, f15⟩ := idx_facts0 t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array at every point. -/
theorem blk0_3 (c : Dev nD) (t : Fin cfg0.N) : iblk0 V c 3 t = (V c main_arg4 : S128x128.Idx → EReal) := by
  obtain ⟨f0, f1, f2, f3, f4, f5, f6, f7, f8, f9, f10, f11, f12, f13, f14, f15⟩ := idx_facts0 t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array at every point. -/
theorem blk0_4 (c : Dev nD) (t : Fin cfg0.N) : iblk0 V c 4 t = (V c main_v19 : S1x128.Idx → EReal) := by
  obtain ⟨f0, f1, f2, f3, f4, f5, f6, f7, f8, f9, f10, f11, f12, f13, f14, f15⟩ := idx_facts0 t
  funext y
  show V c main_v19 (((cfg0.win 4).blk t).view.emb y) = V c main_v19 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem blk0_5 (c : Dev nD) (t : Fin cfg0.N) : iblk0 V c 5 t = (V c main_v20 : S1x128.Idx → EReal) := by
  obtain ⟨f0, f1, f2, f3, f4, f5, f6, f7, f8, f9, f10, f11, f12, f13, f14, f15⟩ := idx_facts0 t
  funext y
  show V c main_v20 (((cfg0.win 5).blk t).view.emb y) = V c main_v20 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array at every point. -/
theorem blk0_6 (c : Dev nD) (t : Fin cfg0.N) : iblk0 V c 6 t = (V c main_v21 : S1x128.Idx → EReal) := by
  obtain ⟨f0, f1, f2, f3, f4, f5, f6, f7, f8, f9, f10, f11, f12, f13, f14, f15⟩ := idx_facts0 t
  funext y
  show V c main_v21 (((cfg0.win 6).blk t).view.emb y) = V c main_v21 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row p of window 0's block at point t is row 5000·t + p of its array. -/
theorem blk0_0 (c : Dev nD) (t : Fin cfg0.N) (p : Fin 5000) (q : Fin 100000) (hq : q.val = t.val * 5000 + p.val) :
    rows (iblk0 V c 0 t) p = rows (V c main_arg0 : S100000x128.Idx → EReal) q := by
  obtain ⟨f0, f1, f2, f3, f4, f5, f6, f7, f8, f9, f10, f11, f12, f13, f14, f15⟩ := idx_facts0 t
  funext k
  show V c main_arg0 (((cfg0.win 0).blk t).view.emb (ix2 p k)) = V c main_arg0 (ix2 q k)
  refine congrArg _ (funext fun a => Fin.ext ?_)
  match a with
  | ⟨0, _⟩ => show win0_0.index t (0 : Fin 2) * 5000 + 1 * p.val = q.val; omega
  | ⟨1, _⟩ => show win0_0.index t (1 : Fin 2) * 128 + 1 * k.val = k.val; omega

/-- Row p of window 1's block at point t is row 5000·t + p of its array. -/
theorem blk0_1 (c : Dev nD) (t : Fin cfg0.N) (p : Fin 5000) (q : Fin 100000) (hq : q.val = t.val * 5000 + p.val) :
    rows (iblk0 V c 1 t) p = rows (V c main_v18 : S100000x128.Idx → EReal) q := by
  obtain ⟨f0, f1, f2, f3, f4, f5, f6, f7, f8, f9, f10, f11, f12, f13, f14, f15⟩ := idx_facts0 t
  funext k
  show V c main_v18 (((cfg0.win 1).blk t).view.emb (ix2 p k)) = V c main_v18 (ix2 q k)
  refine congrArg _ (funext fun a => Fin.ext ?_)
  match a with
  | ⟨0, _⟩ => show win0_1.index t (0 : Fin 2) * 5000 + 1 * p.val = q.val; omega
  | ⟨1, _⟩ => show win0_1.index t (1 : Fin 2) * 128 + 1 * k.val = k.val; omega

/-- What point t writes back is block t of `G0`. -/
theorem flushed0 (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x128) hz2, View.ld_unit_zero (S := S1x128) hz2]
  obtain ⟨f0, f1, f2, f3, f4, f5, f6, f7, f8, f9, f10, f11, f12, f13, f14, f15⟩ := idx_facts0 t
  have htN : t.val < 20 := by have h1 := t.isLt; have h2 : cfg0.N = 20 := N_0; omega
  funext j
  obtain ⟨p, e, rfl⟩ : ∃ (p : Fin 5000) (e : Fin 128), j = ix2 p e := ⟨j 0, j 1, eq_ix2 j⟩
  have hp := p.isLt
  have hemb : ((cfg0.win 7).blk t).view.emb (ix2 p e) = ix2 (⟨t.val * 5000 + p.val, by omega⟩ : Fin 100000) e := by
    funext a; apply Fin.ext
    match a with
    | ⟨0, _⟩ => show win0_7.index t (0 : Fin 2) * 5000 + 1 * p.val = t.val * 5000 + p.val; omega
    | ⟨1, _⟩ => show win0_7.index t (1 : Fin 2) * 128 + 1 * e.val = e.val; omega
  show (k0_pay1 (F := Ideal) (k0_pay2 (F := Ideal) (iblk0 V c 0 t) (iblk0 V c 1 t) (iblk0 V c 2 t) (iblk0 V c 3 t) (iblk0 V c 4 t) (iblk0 V c 5 t)) (iblk0 V c 6 t)) (ix2 p e) = G0 V c (((cfg0.win 7).blk t).view.emb (ix2 p e))
  rw [hemb]
  refine (congrFun (rows_k0 (iblk0 V c 0 t) (iblk0 V c 1 t) (iblk0 V c 2 t) (iblk0 V c 3 t) (iblk0 V c 4 t) (iblk0 V c 5 t) (iblk0 V c 6 t) p) e).trans ?_
  rw [blk0_2 V c t, blk0_3 V c t, blk0_4 V c t, blk0_5 V c t, blk0_6 V c t, blk0_0 V c t p ⟨t.val * 5000 + p.val, by omega⟩ rfl, blk0_1 V c t p ⟨t.val * 5000 + p.val, by omega⟩ rfl]
  rfl

/-- An index of the output array is in point t's block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v22).slice (win0_7.rect t)).set ↔ _
  rw [View.set_slice_whole, Rect.mem_set_unit]
  exact Iff.rfl

/-- The 20 blocks of 5000 rows cover the output array: row r is in block r / 5000. -/
theorem cover0 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  refine ⟨⟨(i 0).val / 5000, by omega⟩, flush0_7 _, ?_⟩
  obtain ⟨f0, f1, f2, f3, f4, f5, f6, f7, f8, f9, f10, f11, f12, f13, f14, f15⟩ := idx_facts0 ⟨(i 0).val / 5000, by omega⟩
  rw [mem_blk0]
  intro a
  match a with
  | ⟨0, _⟩ =>
    show win0_7.index ⟨(i 0).val / 5000, _⟩ (0 : Fin 2) * 5000 ≤ (i 0).val ∧ (i 0).val < win0_7.index ⟨(i 0).val / 5000, _⟩ (0 : Fin 2) * 5000 + 5000
    rw [f14]
    show (i 0).val / 5000 * 5000 ≤ (i 0).val ∧ (i 0).val < (i 0).val / 5000 * 5000 + 5000
    omega
  | ⟨1, _⟩ =>
    show win0_7.index ⟨(i 0).val / 5000, _⟩ (1 : Fin 2) * 128 ≤ (i 1).val ∧ (i 1).val < win0_7.index ⟨(i 0).val / 5000, _⟩ (1 : Fin 2) * 128 + 128
    rw [f15]
    omega

/-- Region 0's output array after the region: `G0` of the arrays the region finds. -/
theorem arrAt0 (c : Dev nD) : (dat0 V c).arrAt 7 cfg0.N = G0 V c :=
  (dat0 V c).arrAt_eq_of_cover 7 (G0 V c) (fun t _ => flushed0 V c t) (cover0)

/-! ## Region 1 -/

/-- The block indices of region 1's windows over its grid of 20 points: the two row-tiled inputs and the output are at
    block (t, 0), every other window is its whole array. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- What region 1's output array ends holding, as one function of the arrays the region finds. -/
def G1 (c : Dev nD) : S100000x128.Idx → EReal :=
  layerNormed (M := 100000) (K := 128) (N := 128) (V c main_v22 : S100000x128.Idx → EReal) (V c main_v34 : S100000x128.Idx → EReal) (V c main_arg6 : S128x128.Idx → EReal) (V c main_arg7 : S128x128.Idx → EReal) (rows (V c main_v35 : S1x128.Idx → EReal) 0) (rows (V c main_v36 : S1x128.Idx → EReal) 0) (rows (V c main_v37 : S1x128.Idx → EReal) 0)

/-- Window 2's block is its whole array at every point. -/
theorem blk1_2 (c : Dev nD) (t : Fin cfg1.N) : iblk1 V c 2 t = (V c main_arg6 : S128x128.Idx → EReal) := by
  obtain ⟨f0, f1, f2, f3, f4, f5, f6, f7, f8, f9, f10, f11, f12, f13, f14, f15⟩ := idx_facts1 t
  funext y
  show V c main_arg6 (((cfg1.win 2).blk t).view.emb y) = V c main_arg6 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array at every point. -/
theorem blk1_3 (c : Dev nD) (t : Fin cfg1.N) : iblk1 V c 3 t = (V c main_arg7 : S128x128.Idx → EReal) := by
  obtain ⟨f0, f1, f2, f3, f4, f5, f6, f7, f8, f9, f10, f11, f12, f13, f14, f15⟩ := idx_facts1 t
  funext y
  show V c main_arg7 (((cfg1.win 3).blk t).view.emb y) = V c main_arg7 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every point. -/
theorem blk1_4 (c : Dev nD) (t : Fin cfg1.N) : iblk1 V c 4 t = (V c main_v35 : S1x128.Idx → EReal) := by
  obtain ⟨f0, f1, f2, f3, f4, f5, f6, f7, f8, f9, f10, f11, f12, f13, f14, f15⟩ := idx_facts1 t
  funext y
  show V c main_v35 (((cfg1.win 4).blk t).view.emb y) = V c main_v35 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem blk1_5 (c : Dev nD) (t : Fin cfg1.N) : iblk1 V c 5 t = (V c main_v36 : S1x128.Idx → EReal) := by
  obtain ⟨f0, f1, f2, f3, f4, f5, f6, f7, f8, f9, f10, f11, f12, f13, f14, f15⟩ := idx_facts1 t
  funext y
  show V c main_v36 (((cfg1.win 5).blk t).view.emb y) = V c main_v36 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array at every point. -/
theorem blk1_6 (c : Dev nD) (t : Fin cfg1.N) : iblk1 V c 6 t = (V c main_v37 : S1x128.Idx → EReal) := by
  obtain ⟨f0, f1, f2, f3, f4, f5, f6, f7, f8, f9, f10, f11, f12, f13, f14, f15⟩ := idx_facts1 t
  funext y
  show V c main_v37 (((cfg1.win 6).blk t).view.emb y) = V c main_v37 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Row p of window 0's block at point t is row 5000·t + p of its array. -/
theorem blk1_0 (c : Dev nD) (t : Fin cfg1.N) (p : Fin 5000) (q : Fin 100000) (hq : q.val = t.val * 5000 + p.val) :
    rows (iblk1 V c 0 t) p = rows (V c main_v22 : S100000x128.Idx → EReal) q := by
  obtain ⟨f0, f1, f2, f3, f4, f5, f6, f7, f8, f9, f10, f11, f12, f13, f14, f15⟩ := idx_facts1 t
  funext k
  show V c main_v22 (((cfg1.win 0).blk t).view.emb (ix2 p k)) = V c main_v22 (ix2 q k)
  refine congrArg _ (funext fun a => Fin.ext ?_)
  match a with
  | ⟨0, _⟩ => show win1_0.index t (0 : Fin 2) * 5000 + 1 * p.val = q.val; omega
  | ⟨1, _⟩ => show win1_0.index t (1 : Fin 2) * 128 + 1 * k.val = k.val; omega

/-- Row p of window 1's block at point t is row 5000·t + p of its array. -/
theorem blk1_1 (c : Dev nD) (t : Fin cfg1.N) (p : Fin 5000) (q : Fin 100000) (hq : q.val = t.val * 5000 + p.val) :
    rows (iblk1 V c 1 t) p = rows (V c main_v34 : S100000x128.Idx → EReal) q := by
  obtain ⟨f0, f1, f2, f3, f4, f5, f6, f7, f8, f9, f10, f11, f12, f13, f14, f15⟩ := idx_facts1 t
  funext k
  show V c main_v34 (((cfg1.win 1).blk t).view.emb (ix2 p k)) = V c main_v34 (ix2 q k)
  refine congrArg _ (funext fun a => Fin.ext ?_)
  match a with
  | ⟨0, _⟩ => show win1_1.index t (0 : Fin 2) * 5000 + 1 * p.val = q.val; omega
  | ⟨1, _⟩ => show win1_1.index t (1 : Fin 2) * 128 + 1 * k.val = k.val; omega

/-- What point t writes back is block t of `G1`. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S1x128) hz2]
  obtain ⟨f0, f1, f2, f3, f4, f5, f6, f7, f8, f9, f10, f11, f12, f13, f14, f15⟩ := idx_facts1 t
  have htN : t.val < 20 := by have h1 := t.isLt; have h2 : cfg1.N = 20 := N_1; omega
  funext j
  obtain ⟨p, e, rfl⟩ : ∃ (p : Fin 5000) (e : Fin 128), j = ix2 p e := ⟨j 0, j 1, eq_ix2 j⟩
  have hp := p.isLt
  have hemb : ((cfg1.win 7).blk t).view.emb (ix2 p e) = ix2 (⟨t.val * 5000 + p.val, by omega⟩ : Fin 100000) e := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * e.val = e.val; omega
  show (k1_pay1 (F := Ideal) (k1_pay2 (F := Ideal) (iblk1 V c 0 t) (iblk1 V c 1 t) (iblk1 V c 2 t) (iblk1 V c 3 t) (iblk1 V c 4 t) (iblk1 V c 5 t)) (iblk1 V c 6 t)) (ix2 p e) = G1 V c (((cfg1.win 7).blk t).view.emb (ix2 p e))
  rw [hemb]
  refine (congrFun (rows_k1 (iblk1 V c 0 t) (iblk1 V c 1 t) (iblk1 V c 2 t) (iblk1 V c 3 t) (iblk1 V c 4 t) (iblk1 V c 5 t) (iblk1 V c 6 t) p) e).trans ?_
  rw [blk1_2 V c t, blk1_3 V c t, blk1_4 V c t, blk1_5 V c t, blk1_6 V c t, blk1_0 V c t p ⟨t.val * 5000 + p.val, by omega⟩ rfl, blk1_1 V c t p ⟨t.val * 5000 + p.val, by omega⟩ rfl]
  rfl

/-- An index of the output array is in point t's block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v38).slice (win1_7.rect t)).set ↔ _
  rw [View.set_slice_whole, Rect.mem_set_unit]
  exact Iff.rfl

/-- The 20 blocks of 5000 rows cover the output array: row r is in block r / 5000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  refine ⟨⟨(i 0).val / 5000, by omega⟩, flush1_7 _, ?_⟩
  obtain ⟨f0, f1, f2, f3, f4, f5, f6, f7, f8, f9, f10, f11, f12, f13, f14, f15⟩ := idx_facts1 ⟨(i 0).val / 5000, by omega⟩
  rw [mem_blk1]
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    rw [f14]
    show (i 0).val / 5000 * 5000 ≤ (i 0).val ∧ (i 0).val < (i 0).val / 5000 * 5000 + 5000
    omega
  | ⟨1, _⟩ =>
    show win1_7.index ⟨(i 0).val / 5000, _⟩ (1 : Fin 2) * 128 ≤ (i 1).val ∧ (i 1).val < win1_7.index ⟨(i 0).val / 5000, _⟩ (1 : Fin 2) * 128 + 128
    rw [f15]
    omega

/-- Region 1's output array after the region: `G1` of the arrays the region finds. -/
theorem arrAt1 (c : Dev nD) : (dat1 V c).arrAt 7 cfg1.N = G1 V c :=
  (dat1 V c).arrAt_eq_of_cover 7 (G1 V c) (fun t _ => flushed1 V c t) (cover1)

/-! ## Region 2 -/

/-- The block indices of region 2's windows over its grid of 20 points: the two row-tiled inputs and the output are at
    block (t, 0), every other window is its whole array. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- What region 2's output array ends holding, as one function of the arrays the region finds. -/
def G2 (c : Dev nD) : S100000x64.Idx → EReal :=
  layerPlain (M := 100000) (K := 128) (N := 64) (V c main_v38 : S100000x128.Idx → EReal) (V c main_v50 : S100000x128.Idx → EReal) (V c main_arg9 : S128x64.Idx → EReal) (V c main_arg10 : S128x64.Idx → EReal) (rows (V c main_v51 : S1x64.Idx → EReal) 0)

/-- Window 2's block is its whole array at every point. -/
theorem blk2_2 (c : Dev nD) (t : Fin cfg2.N) : iblk2 V c 2 t = (V c main_arg9 : S128x64.Idx → EReal) := by
  obtain ⟨f0, f1, f2, f3, f4, f5, f6, f7, f8, f9, f10, f11⟩ := idx_facts2 t
  funext y
  show V c main_arg9 (((cfg2.win 2).blk t).view.emb y) = V c main_arg9 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- Window 3's block is its whole array at every point. -/
theorem blk2_3 (c : Dev nD) (t : Fin cfg2.N) : iblk2 V c 3 t = (V c main_arg10 : S128x64.Idx → EReal) := by
  obtain ⟨f0, f1, f2, f3, f4, f5, f6, f7, f8, f9, f10, f11⟩ := idx_facts2 t
  funext y
  show V c main_arg10 (((cfg2.win 3).blk t).view.emb y) = V c main_arg10 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- Window 4's block is its whole array at every point. -/
theorem blk2_4 (c : Dev nD) (t : Fin cfg2.N) : iblk2 V c 4 t = (V c main_v51 : S1x64.Idx → EReal) := by
  obtain ⟨f0, f1, f2, f3, f4, f5, f6, f7, f8, f9, f10, f11⟩ := idx_facts2 t
  funext y
  show V c main_v51 (((cfg2.win 4).blk t).view.emb y) = V c main_v51 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Row p of window 0's block at point t is row 5000·t + p of its array. -/
theorem blk2_0 (c : Dev nD) (t : Fin cfg2.N) (p : Fin 5000) (q : Fin 100000) (hq : q.val = t.val * 5000 + p.val) :
    rows (iblk2 V c 0 t) p = rows (V c main_v38 : S100000x128.Idx → EReal) q := by
  obtain ⟨f0, f1, f2, f3, f4, f5, f6, f7, f8, f9, f10, f11⟩ := idx_facts2 t
  funext k
  show V c main_v38 (((cfg2.win 0).blk t).view.emb (ix2 p k)) = V c main_v38 (ix2 q k)
  refine congrArg _ (funext fun a => Fin.ext ?_)
  match a with
  | ⟨0, _⟩ => show win2_0.index t (0 : Fin 2) * 5000 + 1 * p.val = q.val; omega
  | ⟨1, _⟩ => show win2_0.index t (1 : Fin 2) * 128 + 1 * k.val = k.val; omega

/-- Row p of window 1's block at point t is row 5000·t + p of its array. -/
theorem blk2_1 (c : Dev nD) (t : Fin cfg2.N) (p : Fin 5000) (q : Fin 100000) (hq : q.val = t.val * 5000 + p.val) :
    rows (iblk2 V c 1 t) p = rows (V c main_v50 : S100000x128.Idx → EReal) q := by
  obtain ⟨f0, f1, f2, f3, f4, f5, f6, f7, f8, f9, f10, f11⟩ := idx_facts2 t
  funext k
  show V c main_v50 (((cfg2.win 1).blk t).view.emb (ix2 p k)) = V c main_v50 (ix2 q k)
  refine congrArg _ (funext fun a => Fin.ext ?_)
  match a with
  | ⟨0, _⟩ => show win2_1.index t (0 : Fin 2) * 5000 + 1 * p.val = q.val; omega
  | ⟨1, _⟩ => show win2_1.index t (1 : Fin 2) * 128 + 1 * k.val = k.val; omega

/-- What point t writes back is block t of `G2`. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x64) hz2, View.ld_unit_zero (S := S1x64) hz2]
  obtain ⟨f0, f1, f2, f3, f4, f5, f6, f7, f8, f9, f10, f11⟩ := idx_facts2 t
  have htN : t.val < 20 := by have h1 := t.isLt; have h2 : cfg2.N = 20 := N_2; omega
  funext j
  obtain ⟨p, e, rfl⟩ : ∃ (p : Fin 5000) (e : Fin 64), j = ix2 p e := ⟨j 0, j 1, eq_ix2 j⟩
  have hp := p.isLt
  have hemb : ((cfg2.win 5).blk t).view.emb (ix2 p e) = ix2 (⟨t.val * 5000 + p.val, by omega⟩ : Fin 100000) e := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * e.val = e.val; omega
  show (k2_pay1 (F := Ideal) (iblk2 V c 0 t) (iblk2 V c 1 t) (iblk2 V c 2 t) (iblk2 V c 3 t) (iblk2 V c 4 t)) (ix2 p e) = G2 V c (((cfg2.win 5).blk t).view.emb (ix2 p e))
  rw [hemb]
  refine (congrFun (rows_k2 (iblk2 V c 0 t) (iblk2 V c 1 t) (iblk2 V c 2 t) (iblk2 V c 3 t) (iblk2 V c 4 t) p) e).trans ?_
  rw [blk2_2 V c t, blk2_3 V c t, blk2_4 V c t, blk2_0 V c t p ⟨t.val * 5000 + p.val, by omega⟩ rfl, blk2_1 V c t p ⟨t.val * 5000 + p.val, by omega⟩ rfl]
  rfl

/-- An index of the output array is in point t's block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v52).slice (win2_5.rect t)).set ↔ _
  rw [View.set_slice_whole, Rect.mem_set_unit]
  exact Iff.rfl

/-- The 20 blocks of 5000 rows cover the output array: row r is in block r / 5000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  refine ⟨⟨(i 0).val / 5000, by omega⟩, flush2_5 _, ?_⟩
  obtain ⟨f0, f1, f2, f3, f4, f5, f6, f7, f8, f9, f10, f11⟩ := idx_facts2 ⟨(i 0).val / 5000, by omega⟩
  rw [mem_blk2]
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [f10]
    show (i 0).val / 5000 * 5000 ≤ (i 0).val ∧ (i 0).val < (i 0).val / 5000 * 5000 + 5000
    omega
  | ⟨1, _⟩ =>
    show win2_5.index ⟨(i 0).val / 5000, _⟩ (1 : Fin 2) * 64 ≤ (i 1).val ∧ (i 1).val < win2_5.index ⟨(i 0).val / 5000, _⟩ (1 : Fin 2) * 64 + 64
    rw [f11]
    omega

/-- Region 2's output array after the region: `G2` of the arrays the region finds. -/
theorem arrAt2 (c : Dev nD) : (dat2 V c).arrAt 5 cfg2.N = G2 V c :=
  (dat2 V c).arrAt_eq_of_cover 5 (G2 V c) (fun t _ => flushed2 V c t) (cover2)

end Cert.SageKernel

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«152912_j23235773072077_1_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.KernelValue.lean ====
/-
  The idealized kernel's result array as the three layers applied in turn to the arguments.

  The run's chain of segments has the result array at the third region's output. Each region's output is its layer
  (`G0`, `G1`, `G2`) of the arrays the region finds; what it finds is read back through the chain: the previous region's
  output, the neighbour mean `aggK` of it, and the argument arrays and the degree column, which nothing in between
  writes.
-/
import proofs.«152912_j23235773072077_1_alg».proof.Proof.KernelRun
import proofs.«152912_j23235773072077_1_alg».proof.Proof.KernelHost
import proofs.«152912_j23235773072077_1_alg».proof.Proof.KernelLayers
import proofs.«152912_j23235773072077_1_alg».proof.Proof.LibHostDenseRows

set_option maxRecDepth 16384

noncomputable section

namespace Cert.SageKernel

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.LibDenseRows Cert.LibNormRows Cert.LibHostDenseRows

variable (m : (ℓ : Loc nD τ sig) → Buf (Elt Ideal) ℓ) (ρ : Dev nD → PrngReg) (c : Dev nD)

/-! ## What nothing writes: the arguments and the degree column at each boundary -/

theorem W2_arg1 : W2 m ρ c (Proc.devRef .tc main_arg1) = (m ((c : Thread nD τ).loc main_arg1)) :=
  (W2_of_ne m ρ c main_arg1 (by decide)).trans (h0_arg1 (W0 m ρ c))
theorem W2_arg2 : W2 m ρ c (Proc.devRef .tc main_arg2) = (m ((c : Thread nD τ).loc main_arg2)) :=
  (W2_of_ne m ρ c main_arg2 (by decide)).trans (h0_arg2 (W0 m ρ c))
theorem W2_arg6 : W2 m ρ c (Proc.devRef .tc main_arg6) = (m ((c : Thread nD τ).loc main_arg6)) :=
  (W2_of_ne m ρ c main_arg6 (by decide)).trans (h0_arg6 (W0 m ρ c))
theorem W2_arg7 : W2 m ρ c (Proc.devRef .tc main_arg7) = (m ((c : Thread nD τ).loc main_arg7)) :=
  (W2_of_ne m ρ c main_arg7 (by decide)).trans (h0_arg7 (W0 m ρ c))
theorem W2_arg8 : W2 m ρ c (Proc.devRef .tc main_arg8) = (m ((c : Thread nD τ).loc main_arg8)) :=
  (W2_of_ne m ρ c main_arg8 (by decide)).trans (h0_arg8 (W0 m ρ c))
theorem W2_arg14 : W2 m ρ c (Proc.devRef .tc main_arg14) = (m ((c : Thread nD τ).loc main_arg14)) :=
  (W2_of_ne m ρ c main_arg14 (by decide)).trans (h0_arg14 (W0 m ρ c))
theorem W2_arg15 : W2 m ρ c (Proc.devRef .tc main_arg15) = (m ((c : Thread nD τ).loc main_arg15)) :=
  (W2_of_ne m ρ c main_arg15 (by decide)).trans (h0_arg15 (W0 m ρ c))
theorem W2_arg9 : W2 m ρ c (Proc.devRef .tc main_arg9) = (m ((c : Thread nD τ).loc main_arg9)) :=
  (W2_of_ne m ρ c main_arg9 (by decide)).trans (h0_arg9 (W0 m ρ c))
theorem W2_arg10 : W2 m ρ c (Proc.devRef .tc main_arg10) = (m ((c : Thread nD τ).loc main_arg10)) :=
  (W2_of_ne m ρ c main_arg10 (by decide)).trans (h0_arg10 (W0 m ρ c))
theorem W2_arg11 : W2 m ρ c (Proc.devRef .tc main_arg11) = (m ((c : Thread nD τ).loc main_arg11)) :=
  (W2_of_ne m ρ c main_arg11 (by decide)).trans (h0_arg11 (W0 m ρ c))
theorem W2_v6 : W2 m ρ c (Proc.devRef .tc main_v6) = denK (m ((c : Thread nD τ).loc main_arg2)) :=
  (W2_of_ne m ρ c main_v6 (by decide)).trans (h0_v6 (W0 m ρ c))

theorem W4_arg1 : W4 m ρ c (Proc.devRef .tc main_arg1) = (m ((c : Thread nD τ).loc main_arg1)) :=
  (W4_of_ne m ρ c main_arg1 (by decide)).trans ((h1_arg1 (W2 m ρ c)).trans (W2_arg1 m ρ c))
theorem W4_arg2 : W4 m ρ c (Proc.devRef .tc main_arg2) = (m ((c : Thread nD τ).loc main_arg2)) :=
  (W4_of_ne m ρ c main_arg2 (by decide)).trans ((h1_arg2 (W2 m ρ c)).trans (W2_arg2 m ρ c))
theorem W4_arg9 : W4 m ρ c (Proc.devRef .tc main_arg9) = (m ((c : Thread nD τ).loc main_arg9)) :=
  (W4_of_ne m ρ c main_arg9 (by decide)).trans ((h1_arg9 (W2 m ρ c)).trans (W2_arg9 m ρ c))
theorem W4_arg10 : W4 m ρ c (Proc.devRef .tc main_arg10) = (m ((c : Thread nD τ).loc main_arg10)) :=
  (W4_of_ne m ρ c main_arg10 (by decide)).trans ((h1_arg10 (W2 m ρ c)).trans (W2_arg10 m ρ c))
theorem W4_arg11 : W4 m ρ c (Proc.devRef .tc main_arg11) = (m ((c : Thread nD τ).loc main_arg11)) :=
  (W4_of_ne m ρ c main_arg11 (by decide)).trans ((h1_arg11 (W2 m ρ c)).trans (W2_arg11 m ρ c))
theorem W4_v6 : W4 m ρ c (Proc.devRef .tc main_v6) = denK (m ((c : Thread nD τ).loc main_arg2)) :=
  (W4_of_ne m ρ c main_v6 (by decide)).trans ((h1_v6 (W2 m ρ c)).trans (W2_v6 m ρ c))

/-! ## The three layers -/

/-- One normalised layer of the network on whole arrays: the features h and their neighbour mean through the two
    weight matrices, the bias, the layer normalisation with gain g and shift β, and the rectifier. -/
def lay (h : FVec Ideal S100000x128 .f32) (src dst : (⟨S1600000, .i32⟩ : BufTy).Contents (Elt Ideal)) (ws wn : FVec Ideal S128x128 .f32) (b g β : FVec Ideal S128 .f32) :
    S100000x128.Idx → EReal :=
  layerNormed (M := 100000) (K := 128) (N := 128) h (aggK h src dst (denK dst)) ws wn (vec b) (vec g) (vec β)

/-- The last layer on whole arrays: the two weight matrices and the bias only, 64 output features. -/
def layP (h : FVec Ideal S100000x128 .f32) (src dst : (⟨S1600000, .i32⟩ : BufTy).Contents (Elt Ideal)) (ws wn : FVec Ideal S128x64 .f32) (b : FVec Ideal S64 .f32) :
    S100000x64.Idx → EReal :=
  layerPlain (M := 100000) (K := 128) (N := 64) h (aggK h src dst (denK dst)) ws wn (vec b)

/-- The first layer's output. -/
def L0 : S100000x128.Idx → EReal :=
  lay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13))

/-- The second layer's output. -/
def L1 : S100000x128.Idx → EReal :=
  lay (L0 m c) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg14)) (m ((c : Thread nD τ).loc main_arg15))

/-- The third layer's output: the result. -/
def L2 : S100000x64.Idx → EReal :=
  layP (L1 m c) (m ((c : Thread nD τ).loc main_arg1)) (m ((c : Thread nD τ).loc main_arg2)) (m ((c : Thread nD τ).loc main_arg9)) (m ((c : Thread nD τ).loc main_arg10)) (m ((c : Thread nD τ).loc main_arg11))

/-- The one row of a vector recast as a one-row matrix is the vector. -/
theorem rows_rowK (b : FVec Ideal S128 .f32) : rows (rowK b) (0 : Fin 1) = vec b :=
  rows_shapeCast_vec b shapeCasts_S128_S1x128

theorem rows_rowK64 (b : FVec Ideal S64 .f32) : rows (rowK64 b) (0 : Fin 1) = vec b :=
  rows_shapeCast_vec b shapeCasts_S64_S1x64

/-- The first region's output array is the first layer of the arguments. -/
theorem region0 : (dat0 (V1 m ρ) c).arrAt 7 cfg0.N = L0 m c := by
  rw [arrAt0]
  unfold G0 L0 lay
  show layerNormed (M := 100000) (K := 128) (N := 128) (after (hostOps0 (F := Ideal)) (W0 m ρ c) (Proc.devRef .tc main_arg0)) (after (hostOps0 (F := Ideal)) (W0 m ρ c) (Proc.devRef .tc main_v18))
      (after (hostOps0 (F := Ideal)) (W0 m ρ c) (Proc.devRef .tc main_arg3)) (after (hostOps0 (F := Ideal)) (W0 m ρ c) (Proc.devRef .tc main_arg4))
      (rows (after (hostOps0 (F := Ideal)) (W0 m ρ c) (Proc.devRef .tc main_v19)) 0) (rows (after (hostOps0 (F := Ideal)) (W0 m ρ c) (Proc.devRef .tc main_v20)) 0)
      (rows (after (hostOps0 (F := Ideal)) (W0 m ρ c) (Proc.devRef .tc main_v21)) 0) = _
  rw [h0_arg0, h0_v18, h0_arg3, h0_arg4, h0_v19, h0_v20, h0_v21, rows_rowK, rows_rowK, rows_rowK]

/-- The second region finds the first layer's output at its first window's array. -/
theorem W2_v22 : W2 m ρ c (Proc.devRef .tc main_v22) = L0 m c :=
  (W2_arr m ρ c 7).trans (region0 m ρ c)

/-- The second region's output array is the second layer. -/
theorem region1 : (dat1 (V3 m ρ) c).arrAt 7 cfg1.N = L1 m c := by
  rw [arrAt1]
  unfold G1 L1 lay
  show layerNormed (M := 100000) (K := 128) (N := 128) (after (hostOps1 (F := Ideal)) (W2 m ρ c) (Proc.devRef .tc main_v22)) (after (hostOps1 (F := Ideal)) (W2 m ρ c) (Proc.devRef .tc main_v34))
      (after (hostOps1 (F := Ideal)) (W2 m ρ c) (Proc.devRef .tc main_arg6)) (after (hostOps1 (F := Ideal)) (W2 m ρ c) (Proc.devRef .tc main_arg7))
      (rows (after (hostOps1 (F := Ideal)) (W2 m ρ c) (Proc.devRef .tc main_v35)) 0) (rows (after (hostOps1 (F := Ideal)) (W2 m ρ c) (Proc.devRef .tc main_v36)) 0)
      (rows (after (hostOps1 (F := Ideal)) (W2 m ρ c) (Proc.devRef .tc main_v37)) 0) = _
  rw [h1_v22, h1_v34, h1_arg6, h1_arg7, h1_v35, h1_v36, h1_v37, rows_rowK, rows_rowK, rows_rowK,
    W2_v22, W2_arg1, W2_arg2, W2_v6, W2_arg6, W2_arg7, W2_arg8, W2_arg14, W2_arg15]

theorem W4_v38 : W4 m ρ c (Proc.devRef .tc main_v38) = L1 m c :=
  (W4_arr m ρ c 7).trans (region1 m ρ c)

/-- The third region's output array is the third layer. -/
theorem region2 : (dat2 (V5 m ρ) c).arrAt 5 cfg2.N = L2 m c := by
  rw [arrAt2]
  unfold G2 L2 layP
  show layerPlain (M := 100000) (K := 128) (N := 64) (after (hostOps2 (F := Ideal)) (W4 m ρ c) (Proc.devRef .tc main_v38)) (after (hostOps2 (F := Ideal)) (W4 m ρ c) (Proc.devRef .tc main_v50))
      (after (hostOps2 (F := Ideal)) (W4 m ρ c) (Proc.devRef .tc main_arg9)) (after (hostOps2 (F := Ideal)) (W4 m ρ c) (Proc.devRef .tc main_arg10))
      (rows (after (hostOps2 (F := Ideal)) (W4 m ρ c) (Proc.devRef .tc main_v51)) 0) = _
  rw [h2_v38, h2_v50, h2_arg9, h2_arg10, h2_v51, rows_rowK64,
    W4_v38, W4_arg1, W4_arg2, W4_v6, W4_arg9, W4_arg10, W4_arg11]

/-- The result array at the end of the chain is the third layer. -/
theorem result_eq : W6 m ρ c (Proc.devRef .tc main_v52) = L2 m c :=
  (W6_arr m ρ c 5).trans (region2 m ρ c)

end Cert.SageKernel

end
-- ==== Proof.RefLayer.lean ====
/-
  The reference's layer as its host operations spell it, read row by row.

  `outR` is x·Ws + a·Wn + b as two host products, a sum and the bias broadcast first to one row and then over the
  rows; `normR` is the layer normalisation of every row (mean by a host sum over the feature axis divided by the float
  128, variance likewise from the squared centred row, reciprocal square root, gain, shift) followed by the maximum
  with zero. Row r of `outR` is `dense2` of row r of the operands, row r of `normR` is `normRelu` of row r: the
  same sums, quotients and maxima of extended reals term by term, with no finiteness used.
-/
import proofs.«152912_j23235773072077_1_alg».proof.ReferenceIdeal
import proofs.«152912_j23235773072077_1_alg».proof.Proof.Gen.ReferenceIdeal
import proofs.«152912_j23235773072077_1_alg».proof.Proof.LibNormRows
import proofs.«152912_j23235773072077_1_alg».proof.Proof.LibHostDenseRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SageRef

open Idealize.ShloMosaic Idealize.ShloMosaic.ValueIdx Cert.ReferenceIdeal Cert.ReferenceIdeal.Gen Cert.LibDenseRows Cert.LibHostDenseRows Cert.LibNormRows

/-- x·Ws + a·Wn + b on the host, 128 output features. -/
def outR (h a : FVec Ideal S100000x128 .f32) (ws wn : FVec Ideal S128x128 .f32) (b : FVec Ideal S128 .f32) :
    FVec Ideal S100000x128 .f32 :=
  addf (addf (Host.dotGeneral (F := Ideal) dot_S100000x128_S128x128_S100000x128_1_0_0_1_n_n none h ws)
      (Host.dotGeneral (F := Ideal) dot_S100000x128_S128x128_S100000x128_1_0_0_1_n_n none a wn))
    (broadcastInDim S100000x128 ![0, 1] bcast_S1x128_S100000x128_0_1 (broadcastInDim S1x128 ![1] bcast_S128_S1x128_1 b))

/-- x·Ws + a·Wn + b on the host, 64 output features. -/
def outR64 (h a : FVec Ideal S100000x128 .f32) (ws wn : FVec Ideal S128x64 .f32) (b : FVec Ideal S64 .f32) :
    FVec Ideal S100000x64 .f32 :=
  addf (addf (Host.dotGeneral (F := Ideal) dot_S100000x128_S128x64_S100000x64_1_0_0_1_n_n none h ws)
      (Host.dotGeneral (F := Ideal) dot_S100000x128_S128x64_S100000x64_1_0_0_1_n_n none a wn))
    (broadcastInDim S100000x64 ![0, 1] bcast_S1x64_S100000x64_0_1 (broadcastInDim S1x64 ![1] bcast_S64_S1x64_1 b))

/-- Every row's sum divided by the float 128, kept as a column. -/
def meanR (o : FVec Ideal S100000x128 .f32) : FVec Ideal S100000x1 .f32 :=
  Host.divf (F := Ideal)
    (broadcastInDim S100000x1 ![0] bcast_S100000_S100000x1_0
      (Host.reduceAdd (F := Ideal) o (constant (F := Ideal) S_ .f32 0x00000000#32) reducesTo_S100000x128_S100000_d1 h_S_))
    (broadcastInDim S100000x1 ![] bcast_S_S100000x1 (constant (F := Ideal) S_ .f32 0x43000000#32))

/-- Every row minus its mean. -/
def cenR (o : FVec Ideal S100000x128 .f32) : FVec Ideal S100000x128 .f32 :=
  subf o (broadcastInDim S100000x128 ![0, 1] bcast_S100000x1_S100000x128_0_1 (meanR o))

/-- Layer normalisation of every row with gain g and shift β, then the maximum with zero. -/
def normR (o : FVec Ideal S100000x128 .f32) (g β : FVec Ideal S128 .f32) : FVec Ideal S100000x128 .f32 :=
  maximumf
    (addf
      (mulf
        (mulf (cenR o)
          (broadcastInDim S100000x128 ![0, 1] bcast_S100000x1_S100000x128_0_1
            (Host.rsqrt (F := Ideal)
              (addf (meanR (mulf (cenR o) (cenR o)))
                (broadcastInDim S100000x1 ![] bcast_S_S100000x1 (constant (F := Ideal) S_ .f32 0x3727C5AC#32))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 β)))
    (broadcastInDim S100000x128 ![] bcast_S_S100000x128 (constant (F := Ideal) S_ .f32 0x00000000#32))

/-! ## Single host operations read at an index -/

/-- A scalar constant spread over any shape reads the extended real its word encodes. -/
theorem broadcast_scalar_const_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_apply _ h _ j (fun a => a.elim0) (fun a => a.elim0)

/-- A vector [M] made a column [M, 1] reads, at (r, u), the vector at r. -/
theorem broadcast_vec_col_apply {M : ℕ} (x : (⟨1, ![M]⟩ : Shape).Idx → EReal)
    (h : (⟨1, ![M]⟩ : Shape).BroadcastsInDim ⟨2, ![M, 1]⟩ ![0]) (r : Fin M) (u : Fin 1) :
    broadcastInDim ⟨2, ![M, 1]⟩ ![0] h x (ix2 r u) = x (ix1 r) :=
  broadcastInDim_apply ![0] h x (ix2 r u) (ix1 r) (fun a => by
    match a with
    | ⟨0, _⟩ =>
      show r.val = if M = 1 then 0 else r.val
      split
      · have := r.isLt; omega
      · rfl)

/-- A column [M, 1] spread over N columns reads, at (r, e), the column's entry of row r. -/
theorem broadcast_col_apply {M N : ℕ} (x : (⟨2, ![M, 1]⟩ : Shape).Idx → EReal)
    (h : (⟨2, ![M, 1]⟩ : Shape).BroadcastsInDim ⟨2, ![M, N]⟩ ![0, 1]) (r : Fin M) (e : Fin N) :
    broadcastInDim ⟨2, ![M, N]⟩ ![0, 1] h x (ix2 r e) = x (ix2 r (0 : Fin 1)) :=
  broadcastInDim_apply ![0, 1] h x (ix2 r e) (ix2 r (0 : Fin 1)) (fun a => by
    match a with
    | ⟨0, _⟩ =>
      show r.val = if M = 1 then 0 else r.val
      split
      · have := r.isLt; omega
      · rfl
    | ⟨1, _⟩ =>
      show (0 : ℕ) = if (1 : ℕ) = 1 then 0 else e.val
      rw [if_pos rfl])

/-- The host sum over the feature axis, from the zero constant, reads at row r the sum of that row's entries: the
    initial value is 0, and the index over r with coordinate f put back on the summed axis is (r, f). -/
theorem hostRowSum_apply {M N : ℕ} (o : FVec Ideal ⟨2, ![M, N]⟩ .f32)
    (h' : (⟨2, ![M, N]⟩ : Shape).ReducesTo [1] ⟨1, ![M]⟩) (hu : 0 < (⟨0, ![]⟩ : Shape).numel) (r : Fin M) :
    Host.reduceAdd (F := Ideal) o (constant (F := Ideal) ⟨0, ![]⟩ .f32 0x00000000#32) h' hu (ix1 r)
      = ∑ f : Fin N, o (ix2 r f) := by
  have h : (⟨2, ![M, N]⟩ : Shape).Reduces [1] ⟨1, ![M]⟩ := ⟨h'.1, Nat.one_pos, h'.2⟩
  show Ideal.hostReduceAdd h' o (Ideal.ofBits .f32 0x00000000#32) (ix1 r) = _
  refine (Ideal.hostReduceAdd_single h' h o _ (ix1 r)).trans ?_
  rw [Ideal.ofBits_zero_f32, zero_add]
  exact Finset.sum_congr rfl fun f _ => congrArg o (funext fun d => Fin.ext (by
    match d with
    | ⟨0, _⟩ => rfl
    | ⟨1, _⟩ => rfl))

/-! ## The reference's mean, centred row and reciprocal deviation, row by row -/

/-- The mean column at row r is the row mean of row r, whatever the unit coordinate. -/
theorem meanR_apply (o : FVec Ideal S100000x128 .f32) (r : Fin 100000) (u : Fin 1) :
    meanR o (ix2 r u) = rowMean (rows o r) := by
  show Ideal.div
      (broadcastInDim S100000x1 ![0] bcast_S100000_S100000x1_0
        (Host.reduceAdd (F := Ideal) o (constant (F := Ideal) S_ .f32 0x00000000#32) reducesTo_S100000x128_S100000_d1 h_S_)
        (ix2 r u))
      (broadcastInDim S100000x1 ![] bcast_S_S100000x1 (constant (F := Ideal) S_ .f32 0x43000000#32) (ix2 r u))
    = Ideal.div (∑ f : Fin 128, o (ix2 r f)) width
  exact congrArg₂ Ideal.div
    ((broadcast_vec_col_apply _ bcast_S100000_S100000x1_0 r u).trans
      (hostRowSum_apply o reducesTo_S100000x128_S100000_d1 h_S_ r))
    (broadcast_scalar_const_apply bcast_S_S100000x1 0x43000000#32 (ix2 r u))

/-- Row r of the centred matrix is row r minus its mean. -/
theorem rows_cenR (o : FVec Ideal S100000x128 .f32) (r : Fin 100000) : rows (cenR o) r = centered (rows o r) :=
  funext fun e => by
    show o (ix2 r e) - broadcastInDim S100000x128 ![0, 1] bcast_S100000x1_S100000x128_0_1 (meanR o) (ix2 r e)
      = o (ix2 r e) - rowMean (rows o r)
    exact congrArg (fun m => o (ix2 r e) - m)
      ((broadcast_col_apply (meanR o) bcast_S100000x1_S100000x128_0_1 r e).trans (meanR_apply o r 0))

/-- Row r of the squared centred matrix is the entrywise square of the centred row r. -/
theorem rows_sq_cenR (o : FVec Ideal S100000x128 .f32) (r : Fin 100000) :
    rows (mulf (cenR o) (cenR o)) r = fun f => centered (rows o r) f * centered (rows o r) f :=
  funext fun f => by
    show rows (cenR o) r f * rows (cenR o) r f = _
    rw [rows_cenR o r]

/-- The reciprocal square root of the variance column plus ε, at row r, is the reciprocal deviation of row r. -/
theorem invStdR_apply (o : FVec Ideal S100000x128 .f32) (r : Fin 100000) (u : Fin 1) :
    Host.rsqrt (F := Ideal)
        (addf (meanR (mulf (cenR o) (cenR o)))
          (broadcastInDim S100000x1 ![] bcast_S_S100000x1 (constant (F := Ideal) S_ .f32 0x3727C5AC#32))) (ix2 r u)
      = invStd (rows o r) := by
  show Ideal.rsqrt
      (meanR (mulf (cenR o) (cenR o)) (ix2 r u)
        + broadcastInDim S100000x1 ![] bcast_S_S100000x1 (constant (F := Ideal) S_ .f32 0x3727C5AC#32) (ix2 r u))
    = Ideal.rsqrt (rowMean (fun f => centered (rows o r) f * centered (rows o r) f) + eps)
  rw [meanR_apply (mulf (cenR o) (cenR o)) r u, rows_sq_cenR o r,
    broadcast_scalar_const_apply bcast_S_S100000x1 0x3727C5AC#32 (ix2 r u)]
  rfl

/-! ## Two host products and a bias, row by row -/

/-- Two plain host products added, plus the bias vector broadcast over the rows: row r is x·Ws + a·Wn + b on row r of
    the two left operands. -/
theorem rows_hostDense2 {M K N : ℕ} (d : DotDims ⟨2, ![M, K]⟩ ⟨2, ![K, N]⟩ ⟨2, ![M, N]⟩)
    (hd : d = DotDims.plain M K N) (prec : Option ContractPrecision)
    (x a : FVec Ideal ⟨2, ![M, K]⟩ .f32) (ws wn : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (addf (Host.dotGeneral (F := Ideal) d prec x ws) (Host.dotGeneral (F := Ideal) d prec a wn))
        (broadcastInDim ⟨2, ![M, N]⟩ ![0, 1] h2 (broadcastInDim ⟨2, ![1, N]⟩ ![1] h1 b))) r
      = dense2 (rows ws) (rows wn) (vec b) (rows x r) (rows a r) :=
  funext fun e => by
    show (rows (Host.dotGeneral (F := Ideal) d prec x ws) r e + rows (Host.dotGeneral (F := Ideal) d prec a wn) r e)
        + rows (broadcastInDim ⟨2, ![M, N]⟩ ![0, 1] h2 (broadcastInDim ⟨2, ![1, N]⟩ ![1] h1 b)) r e
      = (matvec (rows ws) (rows x r) e + matvec (rows wn) (rows a r) e) + vec b e
    rw [rows_hostDot d hd prec x ws r, rows_hostDot d hd prec a wn r, rows_broadcast_vec b h1 h2 r]

/-- Row r of the host's x·Ws + a·Wn + b is `dense2` of row r of x and of a. -/
theorem rows_outR (h a : FVec Ideal S100000x128 .f32) (ws wn : FVec Ideal S128x128 .f32) (b : FVec Ideal S128 .f32)
    (r : Fin 100000) :
    rows (outR h a ws wn b) r = dense2 (rows ws) (rows wn) (vec b) (rows h r) (rows a r) :=
  rows_hostDense2 dot_S100000x128_S128x128_S100000x128_1_0_0_1_n_n rfl none h a ws wn b
    bcast_S128_S1x128_1 bcast_S1x128_S100000x128_0_1 r

/-- The same with 64 output features. -/
theorem rows_outR64 (h a : FVec Ideal S100000x128 .f32) (ws wn : FVec Ideal S128x64 .f32) (b : FVec Ideal S64 .f32)
    (r : Fin 100000) :
    rows (outR64 h a ws wn b) r = dense2 (rows ws) (rows wn) (vec b) (rows h r) (rows a r) :=
  rows_hostDense2 dot_S100000x128_S128x64_S100000x64_1_0_0_1_n_n rfl none h a ws wn b
    bcast_S64_S1x64_1 bcast_S1x64_S100000x64_0_1 r

/-- Row r of the host's normalised and rectified matrix is `normRelu` of row r. -/
theorem rows_normR (o : FVec Ideal S100000x128 .f32) (g β : FVec Ideal S128 .f32) (r : Fin 100000) :
    rows (normR o g β) r = normRelu (vec g) (vec β) (rows o r) := by
  refine (rows_max_zero_const _ bcast_S_S100000x128 r).trans (congrArg relu (funext fun e => ?_))
  show (rows (cenR o) r e
        * broadcastInDim S100000x128 ![0, 1] bcast_S100000x1_S100000x128_0_1
            (Host.rsqrt (F := Ideal)
              (addf (meanR (mulf (cenR o) (cenR o)))
                (broadcastInDim S100000x1 ![] bcast_S_S100000x1 (constant (F := Ideal) S_ .f32 0x3727C5AC#32)))) (ix2 r e))
        * rows (broadcastInDim S100000x128 ![0, 1] bcast_S1x128_S100000x128_0_1
            (broadcastInDim S1x128 ![1] bcast_S128_S1x128_1 g)) r e
      + rows (broadcastInDim S100000x128 ![0, 1] bcast_S1x128_S100000x128_0_1
            (broadcastInDim S1x128 ![1] bcast_S128_S1x128_1 β)) r e
    = (centered (rows o r) e * invStd (rows o r)) * vec g e + vec β e
  rw [rows_cenR o r, broadcast_col_apply _ bcast_S100000x1_S100000x128_0_1 r e, invStdR_apply o r 0,
    rows_broadcast_vec g bcast_S128_S1x128_1 bcast_S1x128_S100000x128_0_1 r,
    rows_broadcast_vec β bcast_S128_S1x128_1 bcast_S1x128_S100000x128_0_1 r]

end Cert.SageRef

end
-- ==== Proof.RefRun.lean ====
/-
  The reference's run, evaluated layer by layer.

  The reference program is one straight line of host operations. Cut after each layer's rectified output, it is three
  stretches; each stretch leaves, at its layer's output buffer, that layer's function (`normR` of `outR`, or `outR64`
  for the last) of the previous layer's output, of its neighbour aggregate and of the weight arrays, and leaves the
  argument arrays and the degree column untouched. The neighbour aggregate `aggR` (gather the source rows, add them
  at the target rows, divide by the clamped in-degree) is carried as one function and never opened. Composing the three
  stretches gives the result array as the three layers applied in turn to the arguments.
-/
import proofs.«152912_j23235773072077_1_alg».proof.Proof.ReferenceOps
import proofs.«152912_j23235773072077_1_alg».proof.Proof.RefLayer
import Idealize.ShloMosaic.Lib.StableHlo.Run

set_option maxRecDepth 8192

noncomputable section

namespace Cert.SageRef

open Cert.ReferenceIdeal Cert.ReferenceIdeal.Gen Cert.ReferenceIdeal.ValueP Idealize.ShloMosaic Idealize.ShloMosaic.TcCoe Idealize.SL.Sem Idealize.ShloMosaic.StableHlo

/-- The contents after two stretches run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The shared host chain: in-degree and neighbour mean -/

/-- The in-degree of every node (how many edges point at it), clamped below at 1, as a column. -/
def denR (dst : (⟨S1600000, .i32⟩ : BufTy).Contents (Elt Ideal)) : FVec Ideal S100000x1 .f32 :=
  broadcastInDim S100000x1 ![0] bcast_S100000_S100000x1_0
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The neighbour mean: the rows of h at the (wrapped) source indices, added at the target rows, divided by the column
    `den` spread over the features. -/
def aggR (h : FVec Ideal S100000x128 .f32) (src dst : (⟨S1600000, .i32⟩ : BufTy).Contents (Elt Ideal))
    (den : FVec Ideal S100000x1 .f32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 den)

/-! ## The three stretches -/

variable (W : Valuation τ sig (Elt Ideal))

/-! ### The first stretch -/

theorem A_v49 : after (opsA (F := Ideal)) W (Proc.devRef .tc main_v49)
    = normR (outR (W (Proc.devRef .tc main_arg0)) (aggR (W (Proc.devRef .tc main_arg0)) (W (Proc.devRef .tc main_arg1)) (W (Proc.devRef .tc main_arg2)) (denR (W (Proc.devRef .tc main_arg2)))) (W (Proc.devRef .tc main_arg3)) (W (Proc.devRef .tc main_arg4)) (W (Proc.devRef .tc main_arg5))) (W (Proc.devRef .tc main_arg12)) (W (Proc.devRef .tc main_arg13)) := by
  after_results_simp <;> rfl

theorem A_v6 : after (opsA (F := Ideal)) W (Proc.devRef .tc main_v6) = denR (W (Proc.devRef .tc main_arg2)) := by
  after_results_simp <;> rfl

theorem A_arg0 : after (opsA (F := Ideal)) W (Proc.devRef .tc main_arg0) = (W (Proc.devRef .tc main_arg0)) := by after_results_simp <;> rfl
theorem A_arg1 : after (opsA (F := Ideal)) W (Proc.devRef .tc main_arg1) = (W (Proc.devRef .tc main_arg1)) := by after_results_simp <;> rfl
theorem A_arg2 : after (opsA (F := Ideal)) W (Proc.devRef .tc main_arg2) = (W (Proc.devRef .tc main_arg2)) := by after_results_simp <;> rfl
theorem A_arg3 : after (opsA (F := Ideal)) W (Proc.devRef .tc main_arg3) = (W (Proc.devRef .tc main_arg3)) := by after_results_simp <;> rfl
theorem A_arg4 : after (opsA (F := Ideal)) W (Proc.devRef .tc main_arg4) = (W (Proc.devRef .tc main_arg4)) := by after_results_simp <;> rfl
theorem A_arg5 : after (opsA (F := Ideal)) W (Proc.devRef .tc main_arg5) = (W (Proc.devRef .tc main_arg5)) := by after_results_simp <;> rfl
theorem A_arg6 : after (opsA (F := Ideal)) W (Proc.devRef .tc main_arg6) = (W (Proc.devRef .tc main_arg6)) := by after_results_simp <;> rfl
theorem A_arg7 : after (opsA (F := Ideal)) W (Proc.devRef .tc main_arg7) = (W (Proc.devRef .tc main_arg7)) := by after_results_simp <;> rfl
theorem A_arg8 : after (opsA (F := Ideal)) W (Proc.devRef .tc main_arg8) = (W (Proc.devRef .tc main_arg8)) := by after_results_simp <;> rfl
theorem A_arg9 : after (opsA (F := Ideal)) W (Proc.devRef .tc main_arg9) = (W (Proc.devRef .tc main_arg9)) := by after_results_simp <;> rfl
theorem A_arg10 : after (opsA (F := Ideal)) W (Proc.devRef .tc main_arg10) = (W (Proc.devRef .tc main_arg10)) := by after_results_simp <;> rfl
theorem A_arg11 : after (opsA (F := Ideal)) W (Proc.devRef .tc main_arg11) = (W (Proc.devRef .tc main_arg11)) := by after_results_simp <;> rfl
theorem A_arg12 : after (opsA (F := Ideal)) W (Proc.devRef .tc main_arg12) = (W (Proc.devRef .tc main_arg12)) := by after_results_simp <;> rfl
theorem A_arg13 : after (opsA (F := Ideal)) W (Proc.devRef .tc main_arg13) = (W (Proc.devRef .tc main_arg13)) := by after_results_simp <;> rfl
theorem A_arg14 : after (opsA (F := Ideal)) W (Proc.devRef .tc main_arg14) = (W (Proc.devRef .tc main_arg14)) := by after_results_simp <;> rfl
theorem A_arg15 : after (opsA (F := Ideal)) W (Proc.devRef .tc main_arg15) = (W (Proc.devRef .tc main_arg15)) := by after_results_simp <;> rfl

/-! ### The second stretch -/

theorem B_v92 : after (opsB (F := Ideal)) W (Proc.devRef .tc main_v92)
    = normR (outR (W (Proc.devRef .tc main_v49)) (aggR (W (Proc.devRef .tc main_v49)) (W (Proc.devRef .tc main_arg1)) (W (Proc.devRef .tc main_arg2)) (W (Proc.devRef .tc main_v6))) (W (Proc.devRef .tc main_arg6)) (W (Proc.devRef .tc main_arg7)) (W (Proc.devRef .tc main_arg8))) (W (Proc.devRef .tc main_arg14)) (W (Proc.devRef .tc main_arg15)) := by
  after_results_simp <;> rfl

theorem B_v6 : after (opsB (F := Ideal)) W (Proc.devRef .tc main_v6) = (W (Proc.devRef .tc main_v6)) := by
  after_results_simp <;> rfl

theorem B_arg0 : after (opsB (F := Ideal)) W (Proc.devRef .tc main_arg0) = (W (Proc.devRef .tc main_arg0)) := by after_results_simp <;> rfl
theorem B_arg1 : after (opsB (F := Ideal)) W (Proc.devRef .tc main_arg1) = (W (Proc.devRef .tc main_arg1)) := by after_results_simp <;> rfl
theorem B_arg2 : after (opsB (F := Ideal)) W (Proc.devRef .tc main_arg2) = (W (Proc.devRef .tc main_arg2)) := by after_results_simp <;> rfl
theorem B_arg3 : after (opsB (F := Ideal)) W (Proc.devRef .tc main_arg3) = (W (Proc.devRef .tc main_arg3)) := by after_results_simp <;> rfl
theorem B_arg4 : after (opsB (F := Ideal)) W (Proc.devRef .tc main_arg4) = (W (Proc.devRef .tc main_arg4)) := by after_results_simp <;> rfl
theorem B_arg5 : after (opsB (F := Ideal)) W (Proc.devRef .tc main_arg5) = (W (Proc.devRef .tc main_arg5)) := by after_results_simp <;> rfl
theorem B_arg6 : after (opsB (F := Ideal)) W (Proc.devRef .tc main_arg6) = (W (Proc.devRef .tc main_arg6)) := by after_results_simp <;> rfl
theorem B_arg7 : after (opsB (F := Ideal)) W (Proc.devRef .tc main_arg7) = (W (Proc.devRef .tc main_arg7)) := by after_results_simp <;> rfl
theorem B_arg8 : after (opsB (F := Ideal)) W (Proc.devRef .tc main_arg8) = (W (Proc.devRef .tc main_arg8)) := by after_results_simp <;> rfl
theorem B_arg9 : after (opsB (F := Ideal)) W (Proc.devRef .tc main_arg9) = (W (Proc.devRef .tc main_arg9)) := by after_results_simp <;> rfl
theorem B_arg10 : after (opsB (F := Ideal)) W (Proc.devRef .tc main_arg10) = (W (Proc.devRef .tc main_arg10)) := by after_results_simp <;> rfl
theorem B_arg11 : after (opsB (F := Ideal)) W (Proc.devRef .tc main_arg11) = (W (Proc.devRef .tc main_arg11)) := by after_results_simp <;> rfl
theorem B_arg12 : after (opsB (F := Ideal)) W (Proc.devRef .tc main_arg12) = (W (Proc.devRef .tc main_arg12)) := by after_results_simp <;> rfl
theorem B_arg13 : after (opsB (F := Ideal)) W (Proc.devRef .tc main_arg13) = (W (Proc.devRef .tc main_arg13)) := by after_results_simp <;> rfl
theorem B_arg14 : after (opsB (F := Ideal)) W (Proc.devRef .tc main_arg14) = (W (Proc.devRef .tc main_arg14)) := by after_results_simp <;> rfl
theorem B_arg15 : after (opsB (F := Ideal)) W (Proc.devRef .tc main_arg15) = (W (Proc.devRef .tc main_arg15)) := by after_results_simp <;> rfl

/-! ### The third stretch -/

theorem C_v110 : after (opsC (F := Ideal)) W (Proc.devRef .tc main_v110)
    = outR64 (W (Proc.devRef .tc main_v92)) (aggR (W (Proc.devRef .tc main_v92)) (W (Proc.devRef .tc main_arg1)) (W (Proc.devRef .tc main_arg2)) (W (Proc.devRef .tc main_v6))) (W (Proc.devRef .tc main_arg9)) (W (Proc.devRef .tc main_arg10)) (W (Proc.devRef .tc main_arg11)) := by
  after_results_simp <;> rfl

theorem C_arg0 : after (opsC (F := Ideal)) W (Proc.devRef .tc main_arg0) = (W (Proc.devRef .tc main_arg0)) := by after_results_simp <;> rfl
theorem C_arg1 : after (opsC (F := Ideal)) W (Proc.devRef .tc main_arg1) = (W (Proc.devRef .tc main_arg1)) := by after_results_simp <;> rfl
theorem C_arg2 : after (opsC (F := Ideal)) W (Proc.devRef .tc main_arg2) = (W (Proc.devRef .tc main_arg2)) := by after_results_simp <;> rfl
theorem C_arg3 : after (opsC (F := Ideal)) W (Proc.devRef .tc main_arg3) = (W (Proc.devRef .tc main_arg3)) := by after_results_simp <;> rfl
theorem C_arg4 : after (opsC (F := Ideal)) W (Proc.devRef .tc main_arg4) = (W (Proc.devRef .tc main_arg4)) := by after_results_simp <;> rfl
theorem C_arg5 : after (opsC (F := Ideal)) W (Proc.devRef .tc main_arg5) = (W (Proc.devRef .tc main_arg5)) := by after_results_simp <;> rfl
theorem C_arg6 : after (opsC (F := Ideal)) W (Proc.devRef .tc main_arg6) = (W (Proc.devRef .tc main_arg6)) := by after_results_simp <;> rfl
theorem C_arg7 : after (opsC (F := Ideal)) W (Proc.devRef .tc main_arg7) = (W (Proc.devRef .tc main_arg7)) := by after_results_simp <;> rfl
theorem C_arg8 : after (opsC (F := Ideal)) W (Proc.devRef .tc main_arg8) = (W (Proc.devRef .tc main_arg8)) := by after_results_simp <;> rfl
theorem C_arg9 : after (opsC (F := Ideal)) W (Proc.devRef .tc main_arg9) = (W (Proc.devRef .tc main_arg9)) := by after_results_simp <;> rfl
theorem C_arg10 : after (opsC (F := Ideal)) W (Proc.devRef .tc main_arg10) = (W (Proc.devRef .tc main_arg10)) := by after_results_simp <;> rfl
theorem C_arg11 : after (opsC (F := Ideal)) W (Proc.devRef .tc main_arg11) = (W (Proc.devRef .tc main_arg11)) := by after_results_simp <;> rfl
theorem C_arg12 : after (opsC (F := Ideal)) W (Proc.devRef .tc main_arg12) = (W (Proc.devRef .tc main_arg12)) := by after_results_simp <;> rfl
theorem C_arg13 : after (opsC (F := Ideal)) W (Proc.devRef .tc main_arg13) = (W (Proc.devRef .tc main_arg13)) := by after_results_simp <;> rfl
theorem C_arg14 : after (opsC (F := Ideal)) W (Proc.devRef .tc main_arg14) = (W (Proc.devRef .tc main_arg14)) := by after_results_simp <;> rfl
theorem C_arg15 : after (opsC (F := Ideal)) W (Proc.devRef .tc main_arg15) = (W (Proc.devRef .tc main_arg15)) := by after_results_simp <;> rfl

/-! ## The whole line -/

variable (m : (ℓ : Loc nD τ sig) → Buf (Elt Ideal) ℓ) (c : Dev nD)

/-- One normalised layer of the reference on whole arrays. -/
def layR (h : FVec Ideal S100000x128 .f32) (src dst : (⟨S1600000, .i32⟩ : BufTy).Contents (Elt Ideal)) (ws wn : FVec Ideal S128x128 .f32) (b g β : FVec Ideal S128 .f32) :
    FVec Ideal S100000x128 .f32 :=
  normR (outR h (aggR h src dst (denR dst)) ws wn b) g β

/-- The reference's last layer on whole arrays. -/
def layPR (h : FVec Ideal S100000x128 .f32) (src dst : (⟨S1600000, .i32⟩ : BufTy).Contents (Elt Ideal)) (ws wn : FVec Ideal S128x64 .f32) (b : FVec Ideal S64 .f32) :
    FVec Ideal S100000x64 .f32 :=
  outR64 h (aggR h src dst (denR dst)) ws wn b

/-- The first layer's output. -/
def R0 : FVec Ideal S100000x128 .f32 :=
  layR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13))

/-- The second layer's output. -/
def R1 : FVec Ideal S100000x128 .f32 :=
  layR (R0 m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15))

/-- The third layer's output: the result. -/
def R2 : FVec Ideal S100000x64 .f32 :=
  layPR (R1 m c) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11))

/-- The fold of the whole line at the result buffer is the three layers applied in turn to the arguments. -/
theorem result_eq : after (ops (F := Ideal)) (launchContents m c) (Proc.devRef .tc main_v110) = R2 m c := by
  show after ((opsA (F := Ideal)) ++ ((opsB (F := Ideal)) ++ (opsC (F := Ideal)))) (launchContents m c) (Proc.devRef .tc main_v110) = _
  rw [after_append, after_append, C_v110, B_v92, B_v6, B_arg1, B_arg2, B_arg9, B_arg10, B_arg11,
    A_v49, A_v6, A_arg1, A_arg2, A_arg6, A_arg7, A_arg8, A_arg14, A_arg15, A_arg9, A_arg10, A_arg11]
  rfl

theorem kept_arg0 : after (ops (F := Ideal)) (launchContents m c) (Proc.devRef .tc main_arg0) = (m ((c.tc : Thread nD τ).loc main_arg0)) := by
  show after ((opsA (F := Ideal)) ++ ((opsB (F := Ideal)) ++ (opsC (F := Ideal)))) (launchContents m c) (Proc.devRef .tc main_arg0) = _
  rw [after_append, after_append, C_arg0, B_arg0, A_arg0]
theorem kept_arg1 : after (ops (F := Ideal)) (launchContents m c) (Proc.devRef .tc main_arg1) = (m ((c.tc : Thread nD τ).loc main_arg1)) := by
  show after ((opsA (F := Ideal)) ++ ((opsB (F := Ideal)) ++ (opsC (F := Ideal)))) (launchContents m c) (Proc.devRef .tc main_arg1) = _
  rw [after_append, after_append, C_arg1, B_arg1, A_arg1]
theorem kept_arg2 : after (ops (F := Ideal)) (launchContents m c) (Proc.devRef .tc main_arg2) = (m ((c.tc : Thread nD τ).loc main_arg2)) := by
  show after ((opsA (F := Ideal)) ++ ((opsB (F := Ideal)) ++ (opsC (F := Ideal)))) (launchContents m c) (Proc.devRef .tc main_arg2) = _
  rw [after_append, after_append, C_arg2, B_arg2, A_arg2]
theorem kept_arg3 : after (ops (F := Ideal)) (launchContents m c) (Proc.devRef .tc main_arg3) = (m ((c.tc : Thread nD τ).loc main_arg3)) := by
  show after ((opsA (F := Ideal)) ++ ((opsB (F := Ideal)) ++ (opsC (F := Ideal)))) (launchContents m c) (Proc.devRef .tc main_arg3) = _
  rw [after_append, after_append, C_arg3, B_arg3, A_arg3]
theorem kept_arg4 : after (ops (F := Ideal)) (launchContents m c) (Proc.devRef .tc main_arg4) = (m ((c.tc : Thread nD τ).loc main_arg4)) := by
  show after ((opsA (F := Ideal)) ++ ((opsB (F := Ideal)) ++ (opsC (F := Ideal)))) (launchContents m c) (Proc.devRef .tc main_arg4) = _
  rw [after_append, after_append, C_arg4, B_arg4, A_arg4]
theorem kept_arg5 : after (ops (F := Ideal)) (launchContents m c) (Proc.devRef .tc main_arg5) = (m ((c.tc : Thread nD τ).loc main_arg5)) := by
  show after ((opsA (F := Ideal)) ++ ((opsB (F := Ideal)) ++ (opsC (F := Ideal)))) (launchContents m c) (Proc.devRef .tc main_arg5) = _
  rw [after_append, after_append, C_arg5, B_arg5, A_arg5]
theorem kept_arg6 : after (ops (F := Ideal)) (launchContents m c) (Proc.devRef .tc main_arg6) = (m ((c.tc : Thread nD τ).loc main_arg6)) := by
  show after ((opsA (F := Ideal)) ++ ((opsB (F := Ideal)) ++ (opsC (F := Ideal)))) (launchContents m c) (Proc.devRef .tc main_arg6) = _
  rw [after_append, after_append, C_arg6, B_arg6, A_arg6]
theorem kept_arg7 : after (ops (F := Ideal)) (launchContents m c) (Proc.devRef .tc main_arg7) = (m ((c.tc : Thread nD τ).loc main_arg7)) := by
  show after ((opsA (F := Ideal)) ++ ((opsB (F := Ideal)) ++ (opsC (F := Ideal)))) (launchContents m c) (Proc.devRef .tc main_arg7) = _
  rw [after_append, after_append, C_arg7, B_arg7, A_arg7]
theorem kept_arg8 : after (ops (F := Ideal)) (launchContents m c) (Proc.devRef .tc main_arg8) = (m ((c.tc : Thread nD τ).loc main_arg8)) := by
  show after ((opsA (F := Ideal)) ++ ((opsB (F := Ideal)) ++ (opsC (F := Ideal)))) (launchContents m c) (Proc.devRef .tc main_arg8) = _
  rw [after_append, after_append, C_arg8, B_arg8, A_arg8]
theorem kept_arg9 : after (ops (F := Ideal)) (launchContents m c) (Proc.devRef .tc main_arg9) = (m ((c.tc : Thread nD τ).loc main_arg9)) := by
  show after ((opsA (F := Ideal)) ++ ((opsB (F := Ideal)) ++ (opsC (F := Ideal)))) (launchContents m c) (Proc.devRef .tc main_arg9) = _
  rw [after_append, after_append, C_arg9, B_arg9, A_arg9]
theorem kept_arg10 : after (ops (F := Ideal)) (launchContents m c) (Proc.devRef .tc main_arg10) = (m ((c.tc : Thread nD τ).loc main_arg10)) := by
  show after ((opsA (F := Ideal)) ++ ((opsB (F := Ideal)) ++ (opsC (F := Ideal)))) (launchContents m c) (Proc.devRef .tc main_arg10) = _
  rw [after_append, after_append, C_arg10, B_arg10, A_arg10]
theorem kept_arg11 : after (ops (F := Ideal)) (launchContents m c) (Proc.devRef .tc main_arg11) = (m ((c.tc : Thread nD τ).loc main_arg11)) := by
  show after ((opsA (F := Ideal)) ++ ((opsB (F := Ideal)) ++ (opsC (F := Ideal)))) (launchContents m c) (Proc.devRef .tc main_arg11) = _
  rw [after_append, after_append, C_arg11, B_arg11, A_arg11]
theorem kept_arg12 : after (ops (F := Ideal)) (launchContents m c) (Proc.devRef .tc main_arg12) = (m ((c.tc : Thread nD τ).loc main_arg12)) := by
  show after ((opsA (F := Ideal)) ++ ((opsB (F := Ideal)) ++ (opsC (F := Ideal)))) (launchContents m c) (Proc.devRef .tc main_arg12) = _
  rw [after_append, after_append, C_arg12, B_arg12, A_arg12]
theorem kept_arg13 : after (ops (F := Ideal)) (launchContents m c) (Proc.devRef .tc main_arg13) = (m ((c.tc : Thread nD τ).loc main_arg13)) := by
  show after ((opsA (F := Ideal)) ++ ((opsB (F := Ideal)) ++ (opsC (F := Ideal)))) (launchContents m c) (Proc.devRef .tc main_arg13) = _
  rw [after_append, after_append, C_arg13, B_arg13, A_arg13]
theorem kept_arg14 : after (ops (F := Ideal)) (launchContents m c) (Proc.devRef .tc main_arg14) = (m ((c.tc : Thread nD τ).loc main_arg14)) := by
  show after ((opsA (F := Ideal)) ++ ((opsB (F := Ideal)) ++ (opsC (F := Ideal)))) (launchContents m c) (Proc.devRef .tc main_arg14) = _
  rw [after_append, after_append, C_arg14, B_arg14, A_arg14]
theorem kept_arg15 : after (ops (F := Ideal)) (launchContents m c) (Proc.devRef .tc main_arg15) = (m ((c.tc : Thread nD τ).loc main_arg15)) := by
  show after ((opsA (F := Ideal)) ++ ((opsB (F := Ideal)) ++ (opsC (F := Ideal)))) (launchContents m c) (Proc.devRef .tc main_arg15) = _
  rw [after_append, after_append, C_arg15, B_arg15, A_arg15]

/-- The reference's run: every weakly fair execution ends with the result array at the three layers of the arguments
    and the argument arrays as launched. -/
theorem run (ρ : Dev nD → PrngReg) :
    θ_run defs (onTc (τ := τ) (main (F := Ideal))) ⟨m, fun _ => 0, ρ⟩ fun r => ∀ c : Dev nD,
      r.2.mem ((c.tc : Thread nD τ).loc main_v110) = R2 m c
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15)) :=
  (θ_run defs _ _).mono (fun _ h c => ⟨(h c main_v110).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c)⟩)
    (run_fold (F := Ideal) m ρ)

end Cert.SageRef

end
-- ==== Proof.Bridge.lean ====
/-
  The two programs compute one function.

  Layer by layer the reference's host operations and the kernel's regions are the same row function of the same rows:
  the reference's normalised layer `layR` and the kernel's `lay` are both `normRelu` of `dense2` of every row of the
  features and of their neighbour mean, and the neighbour mean itself is the same chain of host operations in the two
  programs. So the three layers applied in turn to equal arguments give equal results.
-/
import proofs.«152912_j23235773072077_1_alg».proof.Proof.KernelValue
import proofs.«152912_j23235773072077_1_alg».proof.Proof.RefRun

set_option maxRecDepth 16384

noncomputable section

namespace Cert.SageBridge

open Idealize.ShloMosaic Idealize.ShloMosaic.TcCoe Idealize.ShloMosaic.ValueIdx Idealize.SL.Sem
open Cert.LibDenseRows Cert.LibNormRows

/-- The clamped in-degree column is the same chain of host operations in the two programs. -/
theorem den_eq (dst : (⟨Cert.ReferenceIdeal.S1600000, .i32⟩ : BufTy).Contents (Elt Ideal)) :
    Cert.SageRef.denR dst = Cert.SageKernel.denK dst := rfl

/-- The neighbour mean is the same chain of host operations in the two programs. -/
theorem agg_eq (h : FVec Ideal Cert.ReferenceIdeal.S100000x128 .f32) (src dst : (⟨Cert.ReferenceIdeal.S1600000, .i32⟩ : BufTy).Contents (Elt Ideal))
    (den : FVec Ideal Cert.ReferenceIdeal.S100000x1 .f32) :
    Cert.SageRef.aggR h src dst den = Cert.SageKernel.aggK h src dst den := rfl

/-- A normalised layer of the reference is the kernel's. -/
theorem layR_eq (h : FVec Ideal Cert.ReferenceIdeal.S100000x128 .f32) (src dst : (⟨Cert.ReferenceIdeal.S1600000, .i32⟩ : BufTy).Contents (Elt Ideal))
    (ws wn : FVec Ideal Cert.ReferenceIdeal.S128x128 .f32) (b g β : FVec Ideal Cert.ReferenceIdeal.S128 .f32) :
    Cert.SageRef.layR h src dst ws wn b g β = Cert.SageKernel.lay h src dst ws wn b g β := by
  unfold Cert.SageRef.layR Cert.SageKernel.lay
  rw [den_eq, agg_eq]
  exact eq_layerNormed_of_rows (M := 100000) (K := 128) (N := 128) _ h _ ws wn (vec b) (vec g) (vec β)
    (fun r => by rw [Cert.SageRef.rows_normR, Cert.SageRef.rows_outR])

/-- The reference's last layer is the kernel's. -/
theorem layPR_eq (h : FVec Ideal Cert.ReferenceIdeal.S100000x128 .f32) (src dst : (⟨Cert.ReferenceIdeal.S1600000, .i32⟩ : BufTy).Contents (Elt Ideal))
    (ws wn : FVec Ideal Cert.ReferenceIdeal.S128x64 .f32) (b : FVec Ideal Cert.ReferenceIdeal.S64 .f32) :
    Cert.SageRef.layPR h src dst ws wn b = Cert.SageKernel.layP h src dst ws wn b := by
  unfold Cert.SageRef.layPR Cert.SageKernel.layP
  rw [den_eq, agg_eq]
  exact eq_layerPlain_of_rows (M := 100000) (K := 128) (N := 64) _ h _ ws wn (vec b)
    (fun r => Cert.SageRef.rows_outR64 h _ ws wn b r)

/-- From memories that agree on the sixteen arguments, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    Cert.SageRef.R2 m' c = Cert.SageKernel.L2 m c := by
  obtain ⟨e0, e1, e2, e3, e4, e5, e6, e7, e8, e9, e10, e11, e12, e13, e14, e15⟩ := hagree
  unfold Cert.SageRef.R2 Cert.SageRef.R1 Cert.SageRef.R0 Cert.SageKernel.L2 Cert.SageKernel.L1 Cert.SageKernel.L0
  rw [e0, e1, e2, e3, e4, e5, e6, e7, e8, e9, e10, e11, e12, e13, e14, e15, layR_eq, layR_eq, layPR_eq]

end Cert.SageBridge

end
-- ==== Proof.lean ====
/-
  The certificate of a three-layer graph network: every layer takes each node's features and the mean of its
  in-neighbours' features through two weight matrices and a bias; the first two layers then normalise each row (mean and
  variance over the 128 features, reciprocal square root, gain and shift) and rectify it. The kernel program runs each
  layer's dense part as a kernel region over 20 blocks of 5000 rows, between stretches of host operations that gather
  and add the neighbours' rows; the reference is one line of host operations.

  On the extended reals the two programs are the same function, with no finiteness needed: the neighbour mean is the
  same chain of host operations in both, and each layer is, row by row, the same sums of products, quotients by the
  float 128, reciprocal square root and maxima (a product into a zero accumulator is the host's product; a lane sum is
  the host's sum; a narrowing to bf16 is the identity). The kernel's result array is read off its run region by region:
  each region's 20 blocks tile its output, so the output is the layer of the arrays the region finds. The reference's
  result is its line evaluated one layer at a time. The ideal pass rewrote nothing, so the idealization claim is trivial.
-/
import proofs.«152912_j23235773072077_1_alg».proof.Defs
import proofs.«152912_j23235773072077_1_alg».proof.Proof.Gen.Kernel
import proofs.«152912_j23235773072077_1_alg».proof.Proof.Gen.KernelIdeal
import proofs.«152912_j23235773072077_1_alg».proof.Proof.Gen.ReferenceIdeal
import proofs.«152912_j23235773072077_1_alg».proof.Proof.Gen.Pre_finite_inputs
import proofs.«152912_j23235773072077_1_alg».proof.Proof.KernelFrame
import proofs.«152912_j23235773072077_1_alg».proof.Proof.KernelIdealFrame
import proofs.«152912_j23235773072077_1_alg».proof.Proof.KernelRun
import proofs.«152912_j23235773072077_1_alg».proof.Proof.KernelValue
import proofs.«152912_j23235773072077_1_alg».proof.Proof.RefRun
import proofs.«152912_j23235773072077_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.SageRef.run m ρ)

theorem preserves : Cert.preserves_Kernel_KernelIdeal := trivial

/-- Both runs end with the result array at the three layers applied in turn to arguments that agree. -/
theorem algebraic : Cert.algebraic_KernelIdeal_ReferenceIdeal := by
  intro m ρ m' ρ' _ hagree
  refine ⟨fun c => Cert.SageKernel.L2 m c, ?_, ?_⟩
  · exact (θ_run Cert.KernelIdeal.defs _ _).mono
      (fun r h c => ⟨(h c).1.trans (Cert.SageKernel.result_eq m ρ c), (h c).2⟩)
      (Cert.KernelIdeal.RunNamed.run_named m ρ)
  · exact (θ_run Cert.ReferenceIdeal.defs _ _).mono
      (fun _ h c => ⟨(h c).1.trans (Cert.SageBridge.result_eq m m' c (hagree c)), (h c).2⟩)
      (Cert.SageRef.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
